-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S64x128 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S128x64 : Shape := ⟨2, ![128, 64]⟩
abbrev S50000x64 : Shape := ⟨2, ![50000, 64]⟩
abbrev S10000x128 : Shape := ⟨2, ![10000, 128]⟩
abbrev S10000x64 : Shape := ⟨2, ![10000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 81
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S50000x64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x64, .f32⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S850000x1, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x64, .f32⟩
  | .hbm, ⟨73, _⟩ => ⟨S850000x64, .f32⟩
  | .hbm, ⟨74, _⟩ => ⟨S_, .f32⟩
  | .hbm, ⟨75, _⟩ => ⟨S50000x64, .f32⟩
  | .hbm, ⟨76, _⟩ => ⟨S850000x1, .i32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S10000x128_S128x64_S10000x64_1_0_0_1_n_n_wf : DotDims.WF S10000x128 S128x64 S10000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.FrameDefs.lean ====
/-
  The pipelined projection kernel inside @main: the contents the region finds, the blocks its windows stage, what one
  grid point leaves in the output window's buffer, and the pipeline's proof data.

  @main transposes the weight matrix (one host line), runs the region, then runs 75 host lines on the region's result.
  The region tiles the 50000 rows of `x` into five blocks of 10000 rows; at each grid point the body loads the row block
  and the whole transposed weight, multiplies them on the matrix unit into a zero accumulator, and stores the product over
  the whole output block. So what a point leaves in the output buffer is one store through the whole-block rectangle of
  the product of the two loaded blocks; the two input buffers are left as found.
-/
import proofs.«115316_j45483703665112_2_alg».proof.Proof.Gen.KernelIdeal.Launch
import proofs.«115316_j45483703665112_2_alg».proof.Proof.Gen.KernelIdeal.Skeleton
import proofs.«115316_j45483703665112_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the launch contents after the one host line before the
    region (the transpose of the weight matrix). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-block rectangles the body loads and stores through. -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The output window's buffer after the body, from the two input blocks: one store through the whole-block rectangle
    of the product of the loaded blocks. -/
def out0_2 (x0 : Vec F S10000x128 .f32) (x1 : Vec F S128x64 .f32) : Vec F S10000x64 .f32 :=
  View.canon [⟨r0_2, k0_pay1 (View.ld x0 r0_0) (View.ld x1 r0_1)⟩]

/-- The proof data of the pipeline on core `c`: the arrays as the region finds them; after the body at point `t` each
    input's buffer at its block and the output's at the product of the two blocks; the class invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Fr

end
-- ==== Proof.Frame.lean ====
/-
  The frame run of the pipelined projection kernel. @main is one host line (the transpose of the weight matrix), the
  region, and 75 host lines on the region's result. The region's body is run once against any whole staging buffers;
  the pipeline's run theorem then carries the launch contents through the region and the later lines, and the four
  argument arrays are read off the final state: no line and no write-back ever writes one of them.
-/
import proofs.«115316_j45483703665112_2_alg».proof.Proof.FrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## What the later host lines write

Each later line writes its own result buffer and nothing else. The result buffers of the three stretches are listed
once; a reference outside the list is then written by no later line. -/

/-- The result buffers of the 75 lines after the region, in order. -/
def resTail : List (Ref sig .tc) :=
  [main_v2, main_v3, main_v4, main_v5, main_v6, main_v7, main_v8, main_cst, main_v9, main_cst_0, main_v10, main_v11,
   main_v12, main_cst_1, main_v13, main_v14, main_v15, main_cst_2,
   main_call0_v0, main_call0_v1, main_v16,
   main_c, main_v17, main_v18, main_c_3, main_v19, main_v20, main_v21, main_v22, main_v23, main_c_4, main_v24, main_v25,
   main_c_5, main_v26, main_v27, main_v28, main_v29, main_v30, main_v31, main_v32, main_c_6, main_v33, main_v34, main_c_7,
   main_v35, main_v36, main_v37, main_v38, main_v39, main_v40, main_v41, main_cst_8, main_v42, main_v43, main_v44, main_v45,
   main_c_9, main_v46, main_v47, main_c_10, main_v48, main_v49, main_v50, main_v51, main_v52, main_v53, main_v54, main_cst_11,
   main_v55, main_v56, main_v57, main_v58, main_v59, main_v60]

/-- A one-buffer write set whose buffer is listed lies inside the list's device buffers. -/
theorem sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

theorem hostOps1_writes : (hostOps1 : List (HloOp τ sig (Elt F))).Forall fun op =>
    op.writes ⊆ (resTail.map (Proc.devRef (τ := τ) .tc)).toFinset :=
  ⟨sub_of_mem (y := main_v2) (by decide), sub_of_mem (y := main_v3) (by decide), sub_of_mem (y := main_v4) (by decide), sub_of_mem (y := main_v5) (by decide), sub_of_mem (y := main_v6) (by decide), sub_of_mem (y := main_v7) (by decide), sub_of_mem (y := main_v8) (by decide), sub_of_mem (y := main_cst) (by decide), sub_of_mem (y := main_v9) (by decide), sub_of_mem (y := main_cst_0) (by decide), sub_of_mem (y := main_v10) (by decide), sub_of_mem (y := main_v11) (by decide), sub_of_mem (y := main_v12) (by decide), sub_of_mem (y := main_cst_1) (by decide), sub_of_mem (y := main_v13) (by decide), sub_of_mem (y := main_v14) (by decide), sub_of_mem (y := main_v15) (by decide), sub_of_mem (y := main_cst_2) (by decide)⟩
theorem hostOps1_1_writes : (hostOps1_1 : List (HloOp τ sig (Elt F))).Forall fun op =>
    op.writes ⊆ (resTail.map (Proc.devRef (τ := τ) .tc)).toFinset :=
  ⟨sub_of_mem (y := main_call0_v0) (by decide), sub_of_mem (y := main_call0_v1) (by decide), sub_of_mem (y := main_v16) (by decide)⟩
theorem hostOps1_2_writes : (hostOps1_2 : List (HloOp τ sig (Elt F))).Forall fun op =>
    op.writes ⊆ (resTail.map (Proc.devRef (τ := τ) .tc)).toFinset :=
  ⟨sub_of_mem (y := main_c) (by decide), sub_of_mem (y := main_v17) (by decide), sub_of_mem (y := main_v18) (by decide), sub_of_mem (y := main_c_3) (by decide), sub_of_mem (y := main_v19) (by decide), sub_of_mem (y := main_v20) (by decide), sub_of_mem (y := main_v21) (by decide), sub_of_mem (y := main_v22) (by decide), sub_of_mem (y := main_v23) (by decide), sub_of_mem (y := main_c_4) (by decide), sub_of_mem (y := main_v24) (by decide), sub_of_mem (y := main_v25) (by decide), sub_of_mem (y := main_c_5) (by decide), sub_of_mem (y := main_v26) (by decide), sub_of_mem (y := main_v27) (by decide), sub_of_mem (y := main_v28) (by decide), sub_of_mem (y := main_v29) (by decide), sub_of_mem (y := main_v30) (by decide), sub_of_mem (y := main_v31) (by decide), sub_of_mem (y := main_v32) (by decide), sub_of_mem (y := main_c_6) (by decide), sub_of_mem (y := main_v33) (by decide), sub_of_mem (y := main_v34) (by decide), sub_of_mem (y := main_c_7) (by decide), sub_of_mem (y := main_v35) (by decide), sub_of_mem (y := main_v36) (by decide), sub_of_mem (y := main_v37) (by decide), sub_of_mem (y := main_v38) (by decide), sub_of_mem (y := main_v39) (by decide), sub_of_mem (y := main_v40) (by decide), sub_of_mem (y := main_v41) (by decide), sub_of_mem (y := main_cst_8) (by decide), sub_of_mem (y := main_v42) (by decide), sub_of_mem (y := main_v43) (by decide), sub_of_mem (y := main_v44) (by decide), sub_of_mem (y := main_v45) (by decide), sub_of_mem (y := main_c_9) (by decide), sub_of_mem (y := main_v46) (by decide), sub_of_mem (y := main_v47) (by decide), sub_of_mem (y := main_c_10) (by decide), sub_of_mem (y := main_v48) (by decide), sub_of_mem (y := main_v49) (by decide), sub_of_mem (y := main_v50) (by decide), sub_of_mem (y := main_v51) (by decide), sub_of_mem (y := main_v52) (by decide), sub_of_mem (y := main_v53) (by decide), sub_of_mem (y := main_v54) (by decide), sub_of_mem (y := main_cst_11) (by decide), sub_of_mem (y := main_v55) (by decide), sub_of_mem (y := main_v56) (by decide), sub_of_mem (y := main_v57) (by decide), sub_of_mem (y := main_v58) (by decide), sub_of_mem (y := main_v59) (by decide), sub_of_mem (y := main_v60) (by decide)⟩

/-- Every later line writes inside the list. -/
theorem tail_writes : ∀ op ∈ (List.flatten tailOps : List (HloOp τ sig (Elt F))),
    op.writes ⊆ (resTail.map (Proc.devRef (τ := τ) .tc)).toFinset := by
  intro op hop
  obtain ⟨ops, hops, hop⟩ := List.mem_flatten.mp hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

/-- A reference that is no later line's result is written by no later line. -/
theorem tail_keeps (r : Ref sig .tc) (hr : r ∉ resTail) :
    ∀ op ∈ (List.flatten tailOps : List (HloOp τ sig (Elt F))), Proc.devRef .tc r ∉ op.writes := fun op hop hb => by
  obtain ⟨y, hy, he⟩ := List.mem_map.mp (List.mem_toFinset.mp (tail_writes op hop hb))
  exact hr (Proc.devRef_injective _ he ▸ hy)

/-! ## @main around the region -/

set_option maxHeartbeats 2000000 in
/-- @main is the transpose, the region, and the three later stretches: it reduces to the region continued by the later
    lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch unscoped TensorCore references only: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the pipeline: no array is a later line's result. -/
theorem sfx_keeps : ∀ ops ∈ (tailOps : List (List (HloOp τ sig (Elt F)))), ∀ op ∈ ops,
    ∀ w, Proc.devRef .tc (Pipeline.arrRef spec0 w) ∉ op.writes := fun ops hops op hop w =>
  tail_keeps _ ((by decide : ∀ w, Pipeline.arrRef spec0 w ∉ resTail) w) op (List.mem_flatten.mpr ⟨ops, hops, hop⟩)

/-! ## The argument arrays at the region's entry and at the end -/

/-- The transpose writes its own result only: the region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The three argument arrays that bypass the pipeline end as launched: no later line writes one, the region leaves
    them alone, and neither does the transpose. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps main_arg1 (by decide)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps main_arg2 (by decide)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_keeps main_arg3 (by decide)),
    Pipeline.withArrays_of_ne _ c (V0 m c) _ main_arg3 (by exact (by decide : ∀ w, Pipeline.arrRef spec0 w ≠ main_arg3))]
  exact V_main_arg3 m c

/-! ## What the input windows' buffers hold when the body runs -/

/-- Input window 0's current staging buffer holds its row block at every point: it is fetched at every point, and the
    body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the whole transposed weight at every point: fetched at the first point only,
    its block index never moves afterwards, and the body leaves the buffer in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's triple -/

/-- The body's one store is through the whole-block rectangle, so it covers the output buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging memrefs, the two inputs' at read contents `x0`, `x1` and the output's at anything, runs
    to the continuation holding the inputs' as they were and the output's at the product of the two: three whole-block
    loads (the third, of the output buffer, reads a value the body never uses) and one whole-block store. -/
theorem sound_kernel (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, what the core owes, and the three windows' current staging
    buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- At the compiled mesh, for any values, from any memory with zero counters: every weakly fair execution of @main on the
    TensorCores terminates, and every final state has every array of the pipeline at what the library computes from the
    proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- From the frame run's post to the four argument arrays, in any final state: the row array is an input window's
    array, which the pipeline never writes back, so it holds its region-entry contents; the other three bypass the
    pipeline and no later line writes them. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c)⟩

/-- The frame: every execution of @main terminates, and in every final state the four argument arrays hold what they
    were launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.KernelIdeal.Fr

end
-- ==== Proof.FrameDefsB.lean ====
/-
  The pipelined projection kernel inside @main: the contents the region finds, the blocks its windows stage, what one
  grid point leaves in the output window's buffer, and the pipeline's proof data.

  @main transposes the weight matrix (one host line), runs the region, then runs 75 host lines on the region's result.
  The region tiles the 50000 rows of `x` into five blocks of 10000 rows; at each grid point the body loads the row block
  and the whole transposed weight, multiplies them on the matrix unit into a zero accumulator, and stores the product over
  the whole output block. So what a point leaves in the output buffer is one store through the whole-block rectangle of
  the product of the two loaded blocks; the two input buffers are left as found.
-/
import proofs.«115316_j45483703665112_2_alg».proof.Proof.Gen.Kernel.Launch
import proofs.«115316_j45483703665112_2_alg».proof.Proof.Gen.Kernel.Skeleton
import proofs.«115316_j45483703665112_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: the launch contents after the one host line before the
    region (the transpose of the weight matrix). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-block rectangles the body loads and stores through. -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The output window's buffer after the body, from the two input blocks: one store through the whole-block rectangle
    of the product of the loaded blocks. -/
def out0_2 (x0 : Vec F S10000x128 .f32) (x1 : Vec F S128x64 .f32) : Vec F S10000x64 .f32 :=
  View.canon [⟨r0_2, k0_pay1 (View.ld x0 r0_0) (View.ld x1 r0_1)⟩]

/-- The proof data of the pipeline on core `c`: the arrays as the region finds them; after the body at point `t` each
    input's buffer at its block and the output's at the product of the two blocks; the class invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Fr

end
-- ==== Proof.FrameB.lean ====
/-
  The frame run of the pipelined projection kernel. @main is one host line (the transpose of the weight matrix), the
  region, and 75 host lines on the region's result. The region's body is run once against any whole staging buffers;
  the pipeline's run theorem then carries the launch contents through the region and the later lines, and the four
  argument arrays are read off the final state: no line and no write-back ever writes one of them.
-/
import proofs.«115316_j45483703665112_2_alg».proof.Proof.FrameDefsB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## What the later host lines write

Each later line writes its own result buffer and nothing else. The result buffers of the three stretches are listed
once; a reference outside the list is then written by no later line. -/

/-- The result buffers of the 75 lines after the region, in order. -/
def resTail : List (Ref sig .tc) :=
  [main_v2, main_v3, main_v4, main_v5, main_v6, main_v7, main_v8, main_cst, main_v9, main_cst_0, main_v10, main_v11,
   main_v12, main_cst_1, main_v13, main_v14, main_v15, main_cst_2,
   main_call0_v0, main_call0_v1, main_v16,
   main_c, main_v17, main_v18, main_c_3, main_v19, main_v20, main_v21, main_v22, main_v23, main_c_4, main_v24, main_v25,
   main_c_5, main_v26, main_v27, main_v28, main_v29, main_v30, main_v31, main_v32, main_c_6, main_v33, main_v34, main_c_7,
   main_v35, main_v36, main_v37, main_v38, main_v39, main_v40, main_v41, main_cst_8, main_v42, main_v43, main_v44, main_v45,
   main_c_9, main_v46, main_v47, main_c_10, main_v48, main_v49, main_v50, main_v51, main_v52, main_v53, main_v54, main_cst_11,
   main_v55, main_v56, main_v57, main_v58, main_v59, main_v60]

/-- A one-buffer write set whose buffer is listed lies inside the list's device buffers. -/
theorem sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

theorem hostOps1_writes : (hostOps1 : List (HloOp τ sig (Elt F))).Forall fun op =>
    op.writes ⊆ (resTail.map (Proc.devRef (τ := τ) .tc)).toFinset :=
  ⟨sub_of_mem (y := main_v2) (by decide), sub_of_mem (y := main_v3) (by decide), sub_of_mem (y := main_v4) (by decide), sub_of_mem (y := main_v5) (by decide), sub_of_mem (y := main_v6) (by decide), sub_of_mem (y := main_v7) (by decide), sub_of_mem (y := main_v8) (by decide), sub_of_mem (y := main_cst) (by decide), sub_of_mem (y := main_v9) (by decide), sub_of_mem (y := main_cst_0) (by decide), sub_of_mem (y := main_v10) (by decide), sub_of_mem (y := main_v11) (by decide), sub_of_mem (y := main_v12) (by decide), sub_of_mem (y := main_cst_1) (by decide), sub_of_mem (y := main_v13) (by decide), sub_of_mem (y := main_v14) (by decide), sub_of_mem (y := main_v15) (by decide), sub_of_mem (y := main_cst_2) (by decide)⟩
theorem hostOps1_1_writes : (hostOps1_1 : List (HloOp τ sig (Elt F))).Forall fun op =>
    op.writes ⊆ (resTail.map (Proc.devRef (τ := τ) .tc)).toFinset :=
  ⟨sub_of_mem (y := main_call0_v0) (by decide), sub_of_mem (y := main_call0_v1) (by decide), sub_of_mem (y := main_v16) (by decide)⟩
theorem hostOps1_2_writes : (hostOps1_2 : List (HloOp τ sig (Elt F))).Forall fun op =>
    op.writes ⊆ (resTail.map (Proc.devRef (τ := τ) .tc)).toFinset :=
  ⟨sub_of_mem (y := main_c) (by decide), sub_of_mem (y := main_v17) (by decide), sub_of_mem (y := main_v18) (by decide), sub_of_mem (y := main_c_3) (by decide), sub_of_mem (y := main_v19) (by decide), sub_of_mem (y := main_v20) (by decide), sub_of_mem (y := main_v21) (by decide), sub_of_mem (y := main_v22) (by decide), sub_of_mem (y := main_v23) (by decide), sub_of_mem (y := main_c_4) (by decide), sub_of_mem (y := main_v24) (by decide), sub_of_mem (y := main_v25) (by decide), sub_of_mem (y := main_c_5) (by decide), sub_of_mem (y := main_v26) (by decide), sub_of_mem (y := main_v27) (by decide), sub_of_mem (y := main_v28) (by decide), sub_of_mem (y := main_v29) (by decide), sub_of_mem (y := main_v30) (by decide), sub_of_mem (y := main_v31) (by decide), sub_of_mem (y := main_v32) (by decide), sub_of_mem (y := main_c_6) (by decide), sub_of_mem (y := main_v33) (by decide), sub_of_mem (y := main_v34) (by decide), sub_of_mem (y := main_c_7) (by decide), sub_of_mem (y := main_v35) (by decide), sub_of_mem (y := main_v36) (by decide), sub_of_mem (y := main_v37) (by decide), sub_of_mem (y := main_v38) (by decide), sub_of_mem (y := main_v39) (by decide), sub_of_mem (y := main_v40) (by decide), sub_of_mem (y := main_v41) (by decide), sub_of_mem (y := main_cst_8) (by decide), sub_of_mem (y := main_v42) (by decide), sub_of_mem (y := main_v43) (by decide), sub_of_mem (y := main_v44) (by decide), sub_of_mem (y := main_v45) (by decide), sub_of_mem (y := main_c_9) (by decide), sub_of_mem (y := main_v46) (by decide), sub_of_mem (y := main_v47) (by decide), sub_of_mem (y := main_c_10) (by decide), sub_of_mem (y := main_v48) (by decide), sub_of_mem (y := main_v49) (by decide), sub_of_mem (y := main_v50) (by decide), sub_of_mem (y := main_v51) (by decide), sub_of_mem (y := main_v52) (by decide), sub_of_mem (y := main_v53) (by decide), sub_of_mem (y := main_v54) (by decide), sub_of_mem (y := main_cst_11) (by decide), sub_of_mem (y := main_v55) (by decide), sub_of_mem (y := main_v56) (by decide), sub_of_mem (y := main_v57) (by decide), sub_of_mem (y := main_v58) (by decide), sub_of_mem (y := main_v59) (by decide), sub_of_mem (y := main_v60) (by decide)⟩

/-- Every later line writes inside the list. -/
theorem tail_writes : ∀ op ∈ (List.flatten tailOps : List (HloOp τ sig (Elt F))),
    op.writes ⊆ (resTail.map (Proc.devRef (τ := τ) .tc)).toFinset := by
  intro op hop
  obtain ⟨ops, hops, hop⟩ := List.mem_flatten.mp hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

/-- A reference that is no later line's result is written by no later line. -/
theorem tail_keeps (r : Ref sig .tc) (hr : r ∉ resTail) :
    ∀ op ∈ (List.flatten tailOps : List (HloOp τ sig (Elt F))), Proc.devRef .tc r ∉ op.writes := fun op hop hb => by
  obtain ⟨y, hy, he⟩ := List.mem_map.mp (List.mem_toFinset.mp (tail_writes op hop hb))
  exact hr (Proc.devRef_injective _ he ▸ hy)

/-! ## @main around the region -/

set_option maxHeartbeats 2000000 in
/-- @main is the transpose, the region, and the three later stretches: it reduces to the region continued by the later
    lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch unscoped TensorCore references only: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the pipeline: no array is a later line's result. -/
theorem sfx_keeps : ∀ ops ∈ (tailOps : List (List (HloOp τ sig (Elt F)))), ∀ op ∈ ops,
    ∀ w, Proc.devRef .tc (Pipeline.arrRef spec0 w) ∉ op.writes := fun ops hops op hop w =>
  tail_keeps _ ((by decide : ∀ w, Pipeline.arrRef spec0 w ∉ resTail) w) op (List.mem_flatten.mpr ⟨ops, hops, hop⟩)

/-! ## The argument arrays at the region's entry and at the end -/

/-- The transpose writes its own result only: the region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The three argument arrays that bypass the pipeline end as launched: no later line writes one, the region leaves
    them alone, and neither does the transpose. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps main_arg1 (by decide)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps main_arg2 (by decide)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_keeps main_arg3 (by decide)),
    Pipeline.withArrays_of_ne _ c (V0 m c) _ main_arg3 (by exact (by decide : ∀ w, Pipeline.arrRef spec0 w ≠ main_arg3))]
  exact V_main_arg3 m c

/-! ## What the input windows' buffers hold when the body runs -/

/-- Input window 0's current staging buffer holds its row block at every point: it is fetched at every point, and the
    body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the whole transposed weight at every point: fetched at the first point only,
    its block index never moves afterwards, and the body leaves the buffer in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's triple -/

/-- The body's one store is through the whole-block rectangle, so it covers the output buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging memrefs, the two inputs' at read contents `x0`, `x1` and the output's at anything, runs
    to the continuation holding the inputs' as they were and the output's at the product of the two: three whole-block
    loads (the third, of the output buffer, reads a value the body never uses) and one whole-block store. -/
theorem sound_kernel (c : Dev nD) (E : Set ℕ) (i : grid0.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, what the core owes, and the three windows' current staging
    buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- At the compiled mesh, for any values, from any memory with zero counters: every weakly fair execution of @main on the
    TensorCores terminates, and every final state has every array of the pipeline at what the library computes from the
    proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- From the frame run's post to the four argument arrays, in any final state: the row array is an input window's
    array, which the pipeline never writes back, so it holds its region-entry contents; the other three bypass the
    pipeline and no later line writes them. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c)⟩

/-- The frame: every execution of @main terminates, and in every final state the four argument arrays hold what they
    were launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.Kernel.Fr

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.KValue.lean ====
/-
  The projected features: what the output array of the region holds when the region is left.

  Each grid point multiplies its block of 10000 rows of `x` by the whole transposed weight `wt` (128 by 64) on the
  matrix unit into a zero accumulator; read exactly, a change of float format is the identity, so entry (p, q) of the
  point's product is the sum over k of x (p, k) · wt (k, q). The five blocks tile the 50000 rows, so the whole array
  ends at the one function Z (i, q) = sum over k of x (i, k) · wt (k, q) of the arrays the region found.
-/
import proofs.«115316_j45483703665112_2_alg».proof.Proof.FrameDefs
import proofs.«115316_j45483703665112_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

/-- The projection as one function of the two arrays: entry (i, q) is the sum over k of x (i, k) · wt (k, q). -/
def Zfun (x : S50000x128.Idx → EReal) (wt : S128x64.Idx → EReal) : S50000x64.Idx → EReal :=
  fun i => ∑ k : Fin 128, x (ix2 (⟨(i 0).val, (i 0).isLt⟩ : Fin 50000) k) * wt (ix2 k (⟨(i 1).val, (i 1).isLt⟩ : Fin 64))

/-- One point's product at an entry: the body narrows both loaded blocks to bf16 (the identity at the exact values)
    and multiplies them into a zero accumulator, so entry (p, q) is the sum over k of x0 (p, k) · x1 (k, q). -/
theorem pay_apply (x0 : FVec Ideal S10000x128 .f32) (x1 : FVec Ideal S128x64 .f32) (p : Fin 10000) (q : Fin 64) :
    k0_pay1 (F := Ideal) x0 x1 (ix2 p q) = ∑ k : Fin 128, x0 (ix2 p k) * x1 (ix2 k q) := by
  unfold k0_pay1
  show FloatOps.matmul (DotDims.plain 10000 128 64) none x0 (shapeCast S128x64 x1 shapeCasts_S128x64_S128x64)
      (constant ⟨2, ![10000, 64]⟩ .f32 0x00000000#32) (ix2 p q) = _
  rw [shapeCast_self]
  exact Cert.LibDense.plain_matmul_apply (M := 10000) (K := 128) (N := 64) none x0 x1 p q

/-- The same at any index of the block, its two coordinates named. -/
theorem pay_blk (x0 : FVec Ideal S10000x128 .f32) (x1 : FVec Ideal S128x64 .f32) (j : S10000x64.Idx) :
    k0_pay1 (F := Ideal) x0 x1 j
      = ∑ k : Fin 128, x0 (ix2 (⟨(j 0).val, (j 0).isLt⟩ : Fin 10000) k) * x1 (ix2 k (⟨(j 1).val, (j 1).isLt⟩ : Fin 64)) := by
  obtain ⟨p, q, rfl⟩ : ∃ (p : Fin 10000) (q : Fin 64), j = ix2 p q := ⟨j 0, j 1, eq_ix2 j⟩
  exact pay_apply x0 x1 p q

theorem hz2 : (![0, 0] : Fin 2 → Nat) = fun _ => 0 := funext fun a => by fin_cases a <;> rfl

/-- The index maps over the grid: the row blocks of `x` and of the output move together, nothing else moves, and the
    output's row block number stays below five. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every one of the five row blocks is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

variable (m : (ℓ : Loc nD τ sig) → Buf (Elt Ideal) ℓ)

set_option backward.isDefEq.respectTransparency.types false in
/-- What point `t` writes back is its block of `Zfun` of the two arrays as the region finds them: the row block of
    `x` sits at the same rows as the output's block, the weight block is the whole weight. -/
theorem flushed2_eq (c : Dev nD) (t : Fin cfg0.N) :
    (dats (F := Ideal) m 0 c).flushed 2 t
      = ((cfg0.win 2).blk t).view.read (Elt Ideal) (Zfun (V m c main_arg0) (V m c main_v0)) := by
  show (cfg0.win 2).cut (grid0.coords t) ((dats m 0 c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx_facts t
  funext j
  show k0_pay1 (F := Ideal) (iblk m c 0 t) (iblk m c 1 t) j
    = Zfun (V m c main_arg0) (V m c main_v0) (((cfg0.win 2).blk t).view.emb j)
  refine (pay_blk (iblk m c 0 t) (iblk m c 1 t) j).trans ?_
  unfold Zfun
  refine Finset.sum_congr rfl fun k _ => ?_
  have ha : iblk m c 0 t (ix2 (⟨(j 0).val, (j 0).isLt⟩ : Fin 10000) k)
      = V m c main_arg0 (ix2 (⟨((((cfg0.win 2).blk t).view.emb j) 0).val, ((((cfg0.win 2).blk t).view.emb j) 0).isLt⟩ : Fin 50000) k) := by
    show V m c main_arg0 (((cfg0.win 0).blk t).view.emb (ix2 (⟨(j 0).val, (j 0).isLt⟩ : Fin 10000) k)) = _
    refine congrArg (V m c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have hb : iblk m c 1 t (ix2 k (⟨(j 1).val, (j 1).isLt⟩ : Fin 64))
      = V m c main_v0 (ix2 k (⟨((((cfg0.win 2).blk t).view.emb j) 1).val, ((((cfg0.win 2).blk t).view.emb j) 1).isLt⟩ : Fin 64)) := by
    show V m c main_v0 (((cfg0.win 1).blk t).view.emb (ix2 k (⟨(j 1).val, (j 1).isLt⟩ : Fin 64))) = _
    refine congrArg (V m c main_v0) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega
  rw [ha, hb]

/-- An index of the output array is in point `t`'s block iff each coordinate is in the block's range on its axis. -/
theorem mem_blk2 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- The five row blocks cover the array: row `r` lies in block `r / 10000`. -/
theorem covered2 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY when the region is left: `Zfun` of the two arrays the region found. -/
theorem final2 (c : Dev nD) :
    (dats (F := Ideal) m 0 c).arrAt 2 cfg0.N = Zfun (V m c main_arg0) (V m c main_v0) :=
  (dats (F := Ideal) m 0 c).arrAt_eq_of_cover 2 (Zfun (V m c main_arg0) (V m c main_v0))
    (fun t _ => flushed2_eq m c t) covered2

end Cert.KernelIdeal.KV

end
-- ==== Proof.LibRows.lean ====
/-
  A row gather and a row scatter-add read at an index, at any extents.

  `x[rows]` of a matrix `x : [N, C]` at an integer column `rows : [E, 1]` lowers to a gather whose result element
  `(e, q)` is `x` at row `rows[e, 0]` — read as a signed integer and clamped into `[0, N - 1]` — and column `q`.
  `segment_sum(u, ids)` of `u : [E, C]` lowers to a scatter with an addition body into `[N, C]`: at the exact
  values, element `(i, q)` of the result is the operand's element plus the sum of `u (e, q)` over the rows `e` whose
  index `ids[e, 0]`, read signed and not clamped, is `i`; a row whose index is outside `[0, N)` adds nothing.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## The gather of whole rows -/

private theorem fin2_one_ne_zero : (1 : Fin 2) ≠ 0 := by decide

section Gather
variable {α : Type}

/-- The dimension numbers of a gather of whole rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index selects: the index read signed, clamped into `[0, N - 1]`. -/
def clampRow {w : Nat} (N : Nat) (hN : 0 < N) (b : BitVec w) : Fin N := ⟨min b.toInt.toNat (N - 1), by omega⟩

/-- THE ROW GATHER READ AT `(e, q)`: the operand at the clamped row `idx[e, 0]`, column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (clampRow N hN (idx (ix2 e 0))) q) := by
  unfold Host.gather
  refine congrArg x (funext fun a => Fin.ext ?_)
  have hsi : (rowGatherDims N E C wf).siIdx (ix2 e q) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl), hsi]
    rfl
  | ⟨1, _⟩ =>
    show (rowGatherDims N E C wf).start (ix2 e q) idx 1 + (rowGatherDims N E C wf).batchCoord (ix2 e q) 1
      + (rowGatherDims N E C wf).offCoord (ix2 e q) 1 = _
    have h1 : (1 : Fin 2) ∉ (rowGatherDims N E C wf).startIndexMap := fun h => absurd (List.mem_singleton.mp h) fin2_one_ne_zero
    have hk : (1 : Fin 2) ∈ (rowGatherDims N E C wf).sKept :=
      (GatherDims.mem_sKept _ _).mpr ⟨fun h => absurd (List.mem_singleton.mp h) fin2_one_ne_zero, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Gather

/-! ## The scatter-add of whole rows -/

section Scatter

/-- The dimension numbers of a scatter of whole rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, q)` starts at the index `idx[e, 0]` read signed … -/
theorem rowScatter_start0 (idx : IVec ⟨2, ![E, 1]⟩ w) (e : Fin E) (q : Fin C) :
    (rowScatterDims N E C wf).start (ix2 e q) idx 0 = (idx (ix2 e 0)).toInt := by
  have hsi : (rowScatterDims N E C wf).siIdx (ix2 e q) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  unfold ScatterDims.start
  rw [dif_pos (show (0 : Fin 2) ∈ (rowScatterDims N E C wf).scatterDimsToOperandDims from List.mem_singleton.mpr rfl), hsi]
/-- … and on the column axis at `0`; -/
theorem rowScatter_start1 (idx : IVec ⟨2, ![E, 1]⟩ w) (e : Fin E) (q : Fin C) :
    (rowScatterDims N E C wf).start (ix2 e q) idx 1 = 0 := by
  unfold ScatterDims.start
  rw [dif_neg (fun h => absurd (List.mem_singleton.mp h) fin2_one_ne_zero)]
/-- the window coordinate is `0` on the row axis … -/
theorem rowScatter_window0 (e : Fin E) (q : Fin C) : (rowScatterDims N E C wf).window (ix2 e q) 0 = 0 := by
  unfold ScatterDims.window
  rw [dif_neg (fun h => by
    have := (List.mem_filter.mp h).2
    simp at this)]
/-- … and the update's column on the column axis. -/
theorem rowScatter_window1 (e : Fin E) (q : Fin C) : (rowScatterDims N E C wf).window (ix2 e q) 1 = q.val := by
  unfold ScatterDims.window
  have hk : (1 : Fin 2) ∈ (rowScatterDims N E C wf).sKept := by
    simp [ScatterDims.sKept, Shape.kept, List.mem_filter, List.mem_finRange]
  rw [dif_pos hk]
  rfl

/-- Update `(e, q)` lands on operand element `(i, q')` exactly when its row index, read signed, is `i` and the
    columns agree. -/
theorem rowScatter_lands_iff (idx : IVec ⟨2, ![E, 1]⟩ w) (e : Fin E) (q : Fin C) (i : Fin N) (q' : Fin C) :
    (rowScatterDims N E C wf).resultIdx? (ix2 e q) idx = some (ix2 i q') ↔ (idx (ix2 e 0)).toInt = (i.val : Int) ∧ q = q' := by
  unfold ScatterDims.resultIdx?
  have hi := i.isLt
  have hq := q.isLt
  split
  · next h =>
    have h0 := h 0
    rw [rowScatter_start0, rowScatter_window0] at h0
    constructor
    · intro hs
      have hf := Option.some.inj hs
      have e0 := congrArg (fun f => (f 0).val) hf
      have e1 := congrArg (fun f => (f 1).val) hf
      simp only [rowScatter_start0, rowScatter_window0, rowScatter_start1, rowScatter_window1] at e0 e1
      refine ⟨?_, Fin.ext ?_⟩
      · have : ((idx (ix2 e 0)).toInt + ((0 : Nat) : Int)).toNat = i.val := e0
        omega
      · have : ((0 : Int) + (q.val : Int)).toNat = q'.val := e1
        omega
    · rintro ⟨hs, rfl⟩
      refine congrArg some (funext fun a => Fin.ext ?_)
      match a with
      | ⟨0, _⟩ =>
        show ((rowScatterDims N E C wf).start (ix2 e q) idx 0 + ((rowScatterDims N E C wf).window (ix2 e q) 0 : Int)).toNat = i.val
        rw [rowScatter_start0, rowScatter_window0, hs]; omega
      | ⟨1, _⟩ =>
        show ((rowScatterDims N E C wf).start (ix2 e q) idx 1 + ((rowScatterDims N E C wf).window (ix2 e q) 1 : Int)).toNat = q.val
        rw [rowScatter_start1, rowScatter_window1]; omega
  · next h =>
    constructor
    · intro hs; exact absurd hs (by simp)
    · rintro ⟨hs, rfl⟩
      exfalso; apply h
      intro a
      match a with
      | ⟨0, _⟩ =>
        show 0 ≤ (rowScatterDims N E C wf).start (ix2 e q) idx 0 + ((rowScatterDims N E C wf).window (ix2 e q) 0 : Int)
          ∧ (rowScatterDims N E C wf).start (ix2 e q) idx 0 + ((rowScatterDims N E C wf).window (ix2 e q) 0 : Int) < (N : Int)
        rw [rowScatter_start0, rowScatter_window0, hs]; omega
      | ⟨1, _⟩ =>
        show 0 ≤ (rowScatterDims N E C wf).start (ix2 e q) idx 1 + ((rowScatterDims N E C wf).window (ix2 e q) 1 : Int)
          ∧ (rowScatterDims N E C wf).start (ix2 e q) idx 1 + ((rowScatterDims N E C wf).window (ix2 e q) 1 : Int) < (C : Int)
        rw [rowScatter_start1, rowScatter_window1]; omega

/-- The rows of the updates that land on operand row `i`. -/
def landing (idx : IVec ⟨2, ![E, 1]⟩ w) (i : Fin N) : Finset (Fin E) :=
  Finset.univ.filter fun e => (idx (ix2 e 0)).toInt = (i.val : Int)

/-- THE ROW SCATTER-ADD READ AT `(i, q)`, at the exact values: the operand's element plus the sum over the landing rows
    of the updates' elements in column `q`. -/
theorem rowScatterAdd_apply (x : (⟨2, ![N, C]⟩ : Shape).Idx → EReal) (idx : IVec ⟨2, ![E, 1]⟩ w)
    (upd : (⟨2, ![E, C]⟩ : Shape).Idx → EReal) (i : Fin N) (q : Fin C) :
    Ideal.hostScatterAdd (rowScatterDims N E C wf) x idx upd (ix2 i q)
      = x (ix2 i q) + ∑ e ∈ landing idx i, upd (ix2 e q) := by
  unfold Ideal.hostScatterAdd landing
  refine congrArg (x (ix2 i q) + ·) ?_
  rw [Finset.sum_filter, sum_idx2, Finset.sum_filter]
  refine Finset.sum_congr rfl fun e _ => ?_
  simp only [rowScatter_lands_iff]
  by_cases he : (idx (ix2 e 0)).toInt = (i.val : Int)
  · simp only [he, true_and, if_true]
    rw [Finset.sum_ite_eq' Finset.univ q (fun q' => upd (ix2 e q'))]
    simp
  · simp [he]

end Scatter

end Idealize.ShloMosaic.RowIdx

end
-- ==== Proof.LibReal.lean ====
/-
  Real-valued extended reals, and arrays all of whose entries are real: closure under the arithmetic and the host
  operations of a dense or graph layer, at any shapes.

  An extended real is REAL when it is neither infinity. Sums, differences, products, maxima and finite sums of reals are
  real; a real divided by something at least one is real (the inverse of +∞ is 0); a real divided by a nonzero real is
  real; one over the square root of a positive real is real; the square of a real is nonnegative.
  An array is ALL REAL when every entry is. A gathered, transposed or spread entry is an entry of the operand, so these
  keep all-real arrays; so do the pointwise sum, difference and product; a scatter-add, a matrix product and a host sum
  have entries that are finite sums of (products of) entries, so they keep them too; the zero splat is all real.
-/
import Idealize.ShloMosaic.PureOps.Ideal.Laws
import Idealize.ShloMosaic.Lib.ValueIdx

noncomputable section

open scoped BigOperators

namespace Cert.Sage

open Idealize.ShloMosaic Idealize.ShloMosaic.ValueIdx

/-! ## Real extended reals -/

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) :=
  Finset.sum_induction f IsReal (fun _ _ => IsReal.add) IsReal.zero h

/-- A real over something at least one (possibly +∞, whose inverse is 0) is real. -/
theorem IsReal.div_of_one_le {x y : EReal} (hx : IsReal x) (hy : (1 : EReal) ≤ y) : IsReal (Ideal.div x y) := by
  have hy0 : y ≠ 0 := fun h => by rw [h] at hy; exact absurd hy (by norm_num)
  rw [Ideal.div, if_neg hy0]
  refine hx.mul ?_
  induction y using EReal.rec with
  | bot => exact absurd (le_bot_iff.mp hy) (by exact_mod_cast EReal.coe_ne_bot 1)
  | top => exact ⟨0, by simp⟩
  | coe r => exact ⟨r⁻¹, (EReal.coe_inv r).symm⟩

/-- A real over a nonzero real is real. -/
theorem IsReal.div_coe {x : EReal} (hx : IsReal x) {y : ℝ} (hy : y ≠ 0) : IsReal (Ideal.div x (y : EReal)) := by
  rw [Ideal.div_coe hy]; exact hx.mul (IsReal.coe _)

/-- One over the square root of a positive real is real. -/
theorem IsReal.rsqrt_of_pos {r : ℝ} (h : 0 < r) : IsReal (Ideal.rsqrt (r : EReal)) := by
  refine ⟨(Real.sqrt r)⁻¹, ?_⟩
  show (if r < 0 then ⊥ else if r = 0 then ⊤ else (((Real.sqrt r)⁻¹ : ℝ) : EReal)) = _
  rw [if_neg (not_lt.mpr h.le), if_neg h.ne']

/-- A finite sum of nonnegative extended reals is nonnegative. -/
theorem sum_nonneg' {ι : Type*} (s : Finset ι) (f : ι → EReal) (h : ∀ i ∈ s, 0 ≤ f i) : 0 ≤ ∑ i ∈ s, f i :=
  Finset.sum_nonneg h

/-- The square of a real is nonnegative. -/
theorem IsReal.mul_self_nonneg {x : EReal} (hx : IsReal x) : 0 ≤ x * x := by
  obtain ⟨a, rfl⟩ := hx
  rw [← EReal.coe_mul]; exact_mod_cast _root_.mul_self_nonneg a

/-! ## All-real arrays -/

/-- Every entry of the array is a real number. -/
def AllReal {s : Shape} (v : s.Idx → EReal) : Prop := ∀ i, IsReal (v i)

/-! ## Closure, at any shapes -/

theorem AllReal.bcast {s t : Shape} {dims : Fin s.rank → Fin t.rank} (hb : s.BroadcastsInDim t dims) {v : s.Idx → EReal}
    (h : AllReal v) : AllReal (broadcastInDim t dims hb v) := fun _ => h _

theorem AllReal.gather {s si t : Shape} {w : Nat} (d : GatherDims s si t) {x : s.Idx → EReal} (idx : IVec si w)
    (h : AllReal x) : AllReal (Host.gather d x idx) := fun _ => h _

theorem AllReal.transpose {s t : Shape} {perm : List (Fin s.rank)} (ht : s.Transposes perm t) {x : s.Idx → EReal}
    (h : AllReal x) : AllReal (transpose t perm x ht) := fun _ => h _

theorem AllReal.addf {s : Shape} {a b : FVec Ideal s .f32} (ha : AllReal a) (hb : AllReal b) : AllReal (addf a b) :=
  fun i => (ha i).add (hb i)

theorem AllReal.subf {s : Shape} {a b : FVec Ideal s .f32} (ha : AllReal a) (hb : AllReal b) : AllReal (subf a b) :=
  fun i => (ha i).sub (hb i)

theorem AllReal.mulf {s : Shape} {a b : FVec Ideal s .f32} (ha : AllReal a) (hb : AllReal b) : AllReal (mulf a b) :=
  fun i => (ha i).mul (hb i)

theorem allReal_zero (s : Shape) : AllReal (constant (F := Ideal) s .f32 0x00000000#32) := fun _ => by
  show IsReal (Ideal.ofBits .f32 0x00000000#32)
  rw [Ideal.ofBits_zero_f32]; exact IsReal.zero

theorem AllReal.scatterAdd {s si u : Shape} {w : Nat} (d : ScatterDims s si u) {x : FVec Ideal s .f32} (idx : IVec si w)
    {upd : FVec Ideal u .f32} (hx : AllReal x) (hu : AllReal upd) : AllReal (Host.scatterAdd d x idx upd) := fun i => by
  show IsReal (x i + ∑ j ∈ Finset.univ.filter (fun j => d.resultIdx? j idx = some i), upd j)
  exact (hx i).add (IsReal.sum _ _ fun j _ => hu j)

theorem AllReal.dotGeneral {sl sr so : Shape} (d : DotDims sl sr so) {l : FVec Ideal sl .f32} {r : FVec Ideal sr .f32}
    (hl : AllReal l) (hr : AllReal r) : AllReal (Host.dotGeneral d none l r) := fun j => by
  rw [show Host.dotGeneral d none l r j = _ from Ideal.dotGeneral_apply d none .single l r j]
  exact IsReal.sum _ _ fun k _ => (hl _).mul (hr _)

theorem AllReal.reduceAdd {s t u : Shape} {axes : List (Fin s.rank)} (h : s.ReducesTo axes t) (hu : 0 < u.numel)
    {x : FVec Ideal s .f32} {init : u.Idx → EReal} (hx : AllReal x) (hi : AllReal init) :
    AllReal (Host.reduceAdd x init h hu) := fun j => by
  show IsReal (init (Shape.Idx.first hu) + ∑ i ∈ Finset.univ.filter (fun i => h.drop i = j), x i)
  exact (hi _).add (IsReal.sum _ _ fun i _ => hx i)

end Cert.Sage

end
-- ==== Proof.LibGraph.lean ====
/-
  Graph convolution over the extended reals: aggregating neighbour rows commutes with a dense matrix product.

  A graph-convolution layer forms, for each node `i`, a weighted sum of the rows of its in-neighbours (one term per
  incoming edge `e`, the source row `g e` scaled by the edge weight `nrm e`), and multiplies by a dense matrix `w`.
  The two orders — multiply every row by `w` and then aggregate, or aggregate and then multiply — give
      ∑ₑ (∑ₖ a (g e) k · w k q) · nₑ      and      ∑ₖ (∑ₑ a (g e) k · nₑ) · w k q .
  Over the reals these agree: distribute the product over each finite sum and exchange the two sums. Over the extended
  reals distributivity fails at the infinities (for instance `(⊤ + ⊥) · x` against `⊤ · x + ⊥ · x`), so the law is
  stated for real factors: pick real representatives, move the inclusion `ℝ → EReal` outside the products and the
  finite sums, and conclude in `ℝ`. Index types are abstract: `ι` nodes, `ε` edges, `κ`, `κ'` feature columns.
-/
import proofs.«115316_j45483703665112_2_alg».proof.Proof.LibReal

noncomputable section

open scoped BigOperators

namespace Cert.LibGraph

open Cert.Sage

variable {ι ε κ κ' : Type} [Fintype κ] [Fintype κ']

/-- The dense product of a row-indexed family `a` with a matrix `w`: entry `(i, q)` is `∑ₖ a i k · w k q`. -/
def mm (a : ι → κ → EReal) (w : κ → κ' → EReal) (i : ι) (q : κ') : EReal := ∑ k, a i k * w k q

/-- The weighted aggregation over incoming edges: entry `(i, q)` is `0` plus the sum, over the edges `e` landing on
`i`, of `h (source of e) q · weight e`. -/
def agg (S : ι → Finset ε) (g : ε → ι) (nrm : ε → EReal) (h : ι → κ → EReal) (i : ι) (q : κ) : EReal :=
  0 + ∑ e ∈ S i, h (g e) q * nrm e

/-- The inclusion of the reals into the extended reals commutes with finite sums. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dense product of two real families is real: each entry is a finite sum of products of reals. -/
theorem isReal_mm {a : ι → κ → EReal} {w : κ → κ' → EReal} (ha : ∀ i k, IsReal (a i k)) (hw : ∀ k q, IsReal (w k q))
    (i : ι) (q : κ') : IsReal (mm a w i q) :=
  IsReal.sum _ _ fun k _ => (ha i k).mul (hw k q)

/-- A weighted aggregation of a real family with real weights is real: each entry is zero plus a finite sum of
products of reals. -/
theorem isReal_agg {S : ι → Finset ε} {g : ε → ι} {nrm : ε → EReal} {h : ι → κ → EReal} (hn : ∀ e, IsReal (nrm e))
    (hh : ∀ i k, IsReal (h i k)) (i : ι) (q : κ) : IsReal (agg S g nrm h i q) :=
  IsReal.zero.add (IsReal.sum _ _ fun e _ => (hh (g e) q).mul (hn e))

/-- Aggregation commutes with the dense product when every factor is real:
`∑ₑ (∑ₖ a (g e) k · w k q) · nₑ = ∑ₖ (∑ₑ a (g e) k · nₑ) · w k q`.
Over the reals this is distributivity of the product over both finite sums followed by exchanging the two sums; over
the extended reals distributivity fails at the infinities, which is why every factor is assumed real. -/
theorem agg_mm (S : ι → Finset ε) (g : ε → ι) {nrm : ε → EReal} {a : ι → κ → EReal} {w : κ → κ' → EReal}
    (hn : ∀ e, IsReal (nrm e)) (ha : ∀ i k, IsReal (a i k)) (hw : ∀ k q, IsReal (w k q)) (i : ι) (q : κ') :
    agg S g nrm (mm a w) i q = mm (agg S g nrm a) w i q := by
  choose nrm' hnrm using hn
  choose a' ha' using ha
  choose w' hw' using hw
  obtain rfl : nrm = fun e => (nrm' e : EReal) := funext hnrm
  obtain rfl : a = fun i k => (a' i k : EReal) := funext fun i => funext (ha' i)
  obtain rfl : w = fun k q => (w' k q : EReal) := funext fun k => funext (hw' k)
  have key : (∑ e ∈ S i, (∑ k, a' (g e) k * w' k q) * nrm' e)
      = ∑ k, (∑ e ∈ S i, a' (g e) k * nrm' e) * w' k q := by
    simp only [Finset.sum_mul]
    rw [Finset.sum_comm]
    refine Finset.sum_congr rfl fun k _ => Finset.sum_congr rfl fun e _ => ?_
    ring
  unfold agg mm
  simp only [zero_add, ← EReal.coe_mul, ← coe_sum]
  exact congrArg _ key

/-- The two layer forms — aggregate the products, or multiply the aggregates — followed by a bias row and a clamp at
zero, agree when every factor of the products is real. Nothing is asked of the bias. -/
theorem layer_eq (S : ι → Finset ε) (g : ε → ι) {nrm : ε → EReal} {a : ι → κ → EReal} {w : κ → κ' → EReal}
    (b : κ' → EReal) (hn : ∀ e, IsReal (nrm e)) (ha : ∀ i k, IsReal (a i k)) (hw : ∀ k q, IsReal (w k q)) (i : ι)
    (q : κ') : max (agg S g nrm (mm a w) i q + b q) 0 = max (mm (agg S g nrm a) w i q + b q) 0 := by
  rw [agg_mm S g hn ha hw i q]

/-- The layer output — the product of the aggregates, plus a real bias, clamped at zero — is real. -/
theorem isReal_layer (S : ι → Finset ε) (g : ε → ι) {nrm : ε → EReal} {a : ι → κ → EReal} {w : κ → κ' → EReal}
    {b : κ' → EReal} (hn : ∀ e, IsReal (nrm e)) (ha : ∀ i k, IsReal (a i k)) (hw : ∀ k q, IsReal (w k q))
    (hb : ∀ q, IsReal (b q)) (i : ι) (q : κ') : IsReal (max (mm (agg S g nrm a) w i q + b q) 0) :=
  ((isReal_mm (fun i k => isReal_agg hn ha i k) hw i q).add (hb q)).max IsReal.zero

end Cert.LibGraph

end
-- ==== Proof.LibAggRead.lean ====
/-
  One aggregation stretch of a graph layer, read at an index, at any extents.

  With `N` nodes, `E` edges and `C` feature columns, the stretch gathers the source rows `h[rowB] : [E, C]` of a
  matrix `h : [N, C]`, scales row `e` by the edge weight `nrm e` (the vector `[E]` spread to `[E, 1]` and then to
  `[E, C]`), and scatter-adds the scaled rows at the target indices `colB` into a zero matrix `[N, C]`. Read at
  `(i, q)` at the exact values this is `0 + ∑ₑ h (src e) q · nrm e` over the edges `e` landing on `i`, where `src e`
  is the gather's clamped row index: the abstract weighted aggregation of the rows of `h`. Widening the gathered rows
  first changes nothing, since at the exact values every float type is the extended reals and widening is the identity.
-/
import proofs.«115316_j45483703665112_2_alg».proof.Proof.LibRows
import proofs.«115316_j45483703665112_2_alg».proof.Proof.LibGraph
import Idealize.ShloMosaic.Lib.Pipeline.Value

noncomputable section

open scoped BigOperators

namespace Cert.LibAggRead

open Idealize.ShloMosaic Idealize.ShloMosaic.ValueIdx Idealize.ShloMosaic.RowIdx

/-- The spread of an edge vector `[E]` first to a column `[E, 1]` and then across `[E, C]`, read at `(e, q)`, is the
vector's entry `e`: each step keeps the coordinate on the axis it names and reads `0` on a unit axis, and a coordinate
on a unit axis is `0` anyway. -/
theorem spread_apply {E C : ℕ} {α : Type} (hb1 : (⟨1, ![E]⟩ : Shape).BroadcastsInDim ⟨2, ![E, 1]⟩ ![0])
    (hb2 : (⟨2, ![E, 1]⟩ : Shape).BroadcastsInDim ⟨2, ![E, C]⟩ ![0, 1]) (v : (⟨1, ![E]⟩ : Shape).Idx → α) (e : Fin E)
    (q : Fin C) :
    broadcastInDim ⟨2, ![E, C]⟩ ![0, 1] hb2 (broadcastInDim ⟨2, ![E, 1]⟩ ![0] hb1 v) (ix2 e q) = v (ix1 e) := by
  have he := e.isLt
  rw [broadcastInDim_apply ![0, 1] hb2 _ (ix2 e q) (ix2 e 0) (fun a => by
        match a with
        | ⟨0, _⟩ =>
          show e.val = if E = 1 then 0 else e.val
          split <;> omega
        | ⟨1, _⟩ => rfl),
    broadcastInDim_apply ![0] hb1 v (ix2 e 0) (ix1 e) (fun a => by
        match a with
        | ⟨0, _⟩ =>
          show e.val = if E = 1 then 0 else e.val
          split <;> omega)]

/-- ONE AGGREGATION STRETCH READ AT `(i, q)`. Gather the rows `h[rowB]`, scale row `e` by the edge weight `nrm e`
(spread across the columns), and scatter-add the scaled rows at `colB` into a zero matrix `[N, C]`. At the exact
values element `(i, q)` is `0` plus the sum, over the edges `e` whose scatter index is `i`, of `h` at the clamped
source row of `e`, column `q`, times `nrm e`: the weighted aggregation of the rows of `h`. -/
theorem aggArr_apply {N E C : ℕ} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (h : FVec Ideal ⟨2, ![N, C]⟩ .f32) (rowB colB : IVec ⟨2, ![E, 1]⟩ 32) (nrm : FVec Ideal ⟨1, ![E]⟩ .f32)
    (i : Fin N) (q : Fin C) :
    Host.scatterAdd (rowScatterDims N E C swf)
        (broadcastInDim ⟨2, ![N, C]⟩ ![] hz (constant ⟨0, ![]⟩ .f32 0x00000000#32)) colB
        (mulf (Host.gather (rowGatherDims N E C gwf) h rowB)
          (broadcastInDim ⟨2, ![E, C]⟩ ![0, 1] hb2 (broadcastInDim ⟨2, ![E, 1]⟩ ![0] hb1 nrm))) (ix2 i q)
      = Cert.LibGraph.agg (landing colB) (fun e => clampRow N hN (rowB (ix2 e 0))) (fun e => nrm (ix1 e))
          (fun i k => h (ix2 i k)) i q := by
  show Ideal.hostScatterAdd (rowScatterDims N E C swf) _ colB _ (ix2 i q) = _
  rw [rowScatterAdd_apply]
  unfold Cert.LibGraph.agg
  congr 1
  · rw [broadcastInDim_apply ![] hz _ (ix2 i q) ix0 (fun a => a.elim0), constant_apply, Ideal.ofBits_zero_f32]
  · refine Finset.sum_congr rfl fun e _ => ?_
    rw [mulf_apply, rowGather_apply hN, spread_apply]

/-- THE SAME STRETCH WITH THE GATHERED ROWS WIDENED FIRST. At the exact values every float type is the extended reals
and widening is the identity, so the reading is the one above. -/
theorem aggArr_ext_apply {N E C : ℕ} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (ht : FTy.bf16.bits < FTy.f32.bits)
    (h : FVec Ideal ⟨2, ![N, C]⟩ .bf16) (rowB colB : IVec ⟨2, ![E, 1]⟩ 32) (nrm : FVec Ideal ⟨1, ![E]⟩ .f32)
    (i : Fin N) (q : Fin C) :
    Host.scatterAdd (rowScatterDims N E C swf)
        (broadcastInDim ⟨2, ![N, C]⟩ ![] hz (constant ⟨0, ![]⟩ .f32 0x00000000#32)) colB
        (mulf (extf .f32 (Host.gather (rowGatherDims N E C gwf) h rowB) ht)
          (broadcastInDim ⟨2, ![E, C]⟩ ![0, 1] hb2 (broadcastInDim ⟨2, ![E, 1]⟩ ![0] hb1 nrm))) (ix2 i q)
      = Cert.LibGraph.agg (landing colB) (fun e => clampRow N hN (rowB (ix2 e 0))) (fun e => nrm (ix1 e))
          (fun i k => h (ix2 i k)) i q := by
  show Ideal.hostScatterAdd (rowScatterDims N E C swf) _ colB _ (ix2 i q) = _
  rw [rowScatterAdd_apply]
  unfold Cert.LibGraph.agg
  congr 1
  · rw [broadcastInDim_apply ![] hz _ (ix2 i q) ix0 (fun a => a.elim0), constant_apply, Ideal.ofBits_zero_f32]
  · refine Finset.sum_congr rfl fun e _ => ?_
    rw [mulf_apply, extf_apply, rowGather_apply hN, spread_apply]

end Cert.LibAggRead

end
-- ==== Proof.LibSignCancel.lean ====
/-
  The sign spelt by cases, and a real subtracted and added back, over the extended reals.

  * A kernel that takes jnp.sign of v spells it "where |v| > 0: 1.0 carrying v's sign; elsewhere v itself"; read exactly,
    with "1.0 carrying v's sign" as −1 below zero and 1 otherwise, that is the sign of v (−1, 0 or 1 by the order, the
    infinities' ∓1) at EVERY extended real: `sign_by_cases`.
  * A value f written as (f − g) + g — the forward value of a straight-through estimator, stop_gradient (f − g) + g —
    is f as soon as g is a real number, at any extended real f: `sub_add_cancel_real`.
  * What keeps g real: negation, minimum and a choice between reals are real (the sum, difference, product and maximum
    are in the file this one imports); the words of 0, 1, −1 and 2 are reals.
  * An extended real whose absolute value compares below the word of +∞ (one conjunct of a "finite inputs"
    precondition, at one index) is a real: `isReal_of_abs_lt_top`.

  Imports the library and the real-closure file LibReal.lean beside it (its `IsReal`): copy both.
-/
import Idealize.ShloMosaic.PureOps.Ideal.Laws
import proofs.«115316_j45483703665112_2_alg».proof.Proof.LibReal

noncomputable section

namespace Cert.LibSignCancel

open Idealize.ShloMosaic Cert.Sage

/-! ## The words -/

/-- The f32 word 0x3F800000 is the real 1. -/
theorem word_one : Ideal.ofBits .f32 0x3F800000#32 = ((1 : ℝ) : EReal) := by
  simp [Ideal.ofBits, Ideal.ieee, -EReal.coe_mul]; norm_num

/-- The f32 word 0xBF800000 is the real −1. -/
theorem word_neg_one : Ideal.ofBits .f32 0xBF800000#32 = ((-1 : ℝ) : EReal) := by
  simp [Ideal.ofBits, Ideal.ieee, -EReal.coe_mul, -EReal.coe_neg]; norm_num

/-- The f32 word 0x40000000 is the real 2. -/
theorem word_two : Ideal.ofBits .f32 0x40000000#32 = ((2 : ℝ) : EReal) := by
  simp [Ideal.ofBits, Ideal.ieee, -EReal.coe_mul]; norm_num

/-- The f32 zero word is the real 0. -/
theorem word_zero : Ideal.ofBits .f32 0x00000000#32 = ((0 : ℝ) : EReal) := by
  rw [Ideal.ofBits_zero_f32]; rfl

/-! ## The sign, spelt by cases -/

/-- "Where |v| > 0: −1 below zero, 1 otherwise; elsewhere v" is the sign of v, at every extended real. -/
theorem sign_by_cases (v : EReal) :
    Scalar.select (Ideal.cmp .ogt (max v (-v)) (Ideal.ofBits .f32 0x00000000#32))
        (Scalar.select (Ideal.cmp .olt v (Ideal.ofBits .f32 0x00000000#32)) (Ideal.ofBits .f32 0xBF800000#32) (Ideal.ofBits .f32 0x3F800000#32))
        v
      = Ideal.sign v := by
  rw [word_one, word_neg_one, Ideal.ofBits_zero_f32]
  unfold Scalar.select Ideal.cmp
  induction v using EReal.rec with
  | bot => simp
  | top => simp
  | coe r =>
    rw [Ideal.sign_coe]
    rcases lt_trichotomy r 0 with h | h | h
    · have h1 : (0 : EReal) < max (r : EReal) (-(r : EReal)) := lt_max_of_lt_right (by
        rw [← EReal.coe_neg]; exact_mod_cast neg_pos.mpr h)
      have h2 : (r : EReal) < 0 := by exact_mod_cast h
      simp [h1, h2, sign_neg h]
    · subst h; simp
    · have h1 : (0 : EReal) < max (r : EReal) (-(r : EReal)) := lt_max_of_lt_left (by exact_mod_cast h)
      have h2 : ¬ (r : EReal) < 0 := not_lt.mpr (by exact_mod_cast h.le)
      simp [h1, h2, sign_pos h]

/-! ## Subtracting a real and adding it back -/

/-- (a − c) + c = a for a real c, at any extended real a. -/
theorem sub_add_cancel_real (a : EReal) {c : EReal} (hc : IsReal c) : a - c + c = a := by
  obtain ⟨r, rfl⟩ := hc
  induction a using EReal.rec with
  | bot => simp
  | top => simp
  | coe s => norm_cast; ring

/-! ## More operations that keep reals -/

/-- The negation of a real is real. -/
theorem _root_.Cert.Sage.IsReal.neg {x : EReal} (hx : IsReal x) : IsReal (-x) := by
  obtain ⟨a, rfl⟩ := hx; exact ⟨-a, (EReal.coe_neg a).symm⟩

/-- The minimum of two reals is real. -/
theorem _root_.Cert.Sage.IsReal.min {x y : EReal} (hx : IsReal x) (hy : IsReal y) : IsReal (min x y) := by
  rcases min_choice x y with h | h <;> rw [h] <;> assumption

/-- A choice between two reals is real, whatever the condition. -/
theorem _root_.Cert.Sage.IsReal.select {c : BitVec 1} {x y : EReal} (hx : IsReal x) (hy : IsReal y) :
    IsReal (Scalar.select c x y) := by
  unfold Scalar.select; split <;> assumption

theorem isReal_one : IsReal (Ideal.ofBits .f32 0x3F800000#32) := ⟨1, word_one⟩
theorem isReal_neg_one : IsReal (Ideal.ofBits .f32 0xBF800000#32) := ⟨-1, word_neg_one⟩
theorem isReal_two : IsReal (Ideal.ofBits .f32 0x40000000#32) := ⟨2, word_two⟩
theorem isReal_zero : IsReal (Ideal.ofBits .f32 0x00000000#32) := ⟨0, word_zero⟩

/-! ## Below +∞ in absolute value -/

/-- An extended real whose absolute value is below the word of +∞ is a real. -/
theorem isReal_of_abs_lt_top (v : EReal)
    (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  unfold Ideal.cmp at h
  induction v using EReal.rec with
  | bot => simp at h
  | top => simp at h
  | coe r => exact ⟨r, rfl⟩

end Cert.LibSignCancel

end
-- ==== Proof.LibHops.lean ====
/-
  A K-hop graph propagation, read at an index and commuted with a dense matrix product, at any extents.

  With N nodes, E edges and C feature columns, ONE HOP of a matrix h : [N, C] gathers the source rows h[rowB] : [E, C],
  scales row e by the edge weight nrm e (the vector [E] spread to [E, 1] and then to [E, C]; the weight is the LEFT
  factor of the product), and scatter-adds the scaled rows at the target indices colB into a zero matrix [N, C]. Read
  at (i, q) at the exact values this is 0 + ∑ₑ h (src e) q · nrm e over the edges e landing on i: the abstract weighted
  aggregation of the rows of h (the product of two extended reals commutes).

  Two hops of a dense product x · wt equal the dense product of two hops of x with wt, as soon as x, wt and the edge
  weights are all real: the aggregation commutes with the dense product for real factors (distributivity fails at the
  infinities), used once for each hop, the second time on the aggregated rows, which are real again.

  The edge weights of a symmetric normalisation — the inverse square root of the degree where the degree is positive,
  a real default elsewhere, gathered at both ends of the edge and multiplied — are real: the degree is a finite sum of
  reals, and one over the square root of a positive real is real.
-/
import proofs.«115316_j45483703665112_2_alg».proof.Proof.LibAggRead
import proofs.«115316_j45483703665112_2_alg».proof.Proof.LibDense
import proofs.«115316_j45483703665112_2_alg».proof.Proof.LibSignCancel

noncomputable section

open scoped BigOperators

namespace Cert.LibHops

open Idealize.ShloMosaic Idealize.ShloMosaic.ValueIdx Idealize.ShloMosaic.RowIdx Cert.Sage

/-- ONE HOP of a graph propagation: gather the source rows h[rowB], scale row e by the edge weight nrm e (spread
across the columns; the weight is the left factor), and scatter-add the scaled rows at colB into a zero matrix. -/
def hop {N E C : ℕ}
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (nrm : FVec Ideal ⟨1, ![E]⟩ .f32) (rowB colB : IVec ⟨2, ![E, 1]⟩ 32)
    (h : FVec Ideal ⟨2, ![N, C]⟩ .f32) : FVec Ideal ⟨2, ![N, C]⟩ .f32 :=
  Host.scatterAdd (rowScatterDims N E C swf)
    (broadcastInDim ⟨2, ![N, C]⟩ ![] hz (constant ⟨0, ![]⟩ .f32 0x00000000#32)) colB
    (mulf (broadcastInDim ⟨2, ![E, C]⟩ ![0, 1] hb2 (broadcastInDim ⟨2, ![E, 1]⟩ ![0] hb1 nrm))
      (Host.gather (rowGatherDims N E C gwf) h rowB))

/-- ONE HOP READ AT (i, q): 0 plus the sum, over the edges e whose scatter index is i, of h at the clamped source row
of e, column q, times the weight of e — the weighted aggregation of the rows of h. The hop multiplies weight · row and
the aggregation row · weight; the product of extended reals commutes. -/
theorem hop_apply {N E C : ℕ} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (nrm : FVec Ideal ⟨1, ![E]⟩ .f32) (rowB colB : IVec ⟨2, ![E, 1]⟩ 32)
    (h : FVec Ideal ⟨2, ![N, C]⟩ .f32) (i : Fin N) (q : Fin C) :
    hop gwf swf hz hb1 hb2 nrm rowB colB h (ix2 i q)
      = Cert.LibGraph.agg (landing colB) (fun e => clampRow N hN (rowB (ix2 e 0))) (fun e => nrm (ix1 e))
          (fun i k => h (ix2 i k)) i q := by
  show Ideal.hostScatterAdd (rowScatterDims N E C swf) _ colB _ (ix2 i q) = _
  rw [rowScatterAdd_apply]
  unfold Cert.LibGraph.agg
  congr 1
  · rw [broadcastInDim_apply ![] hz _ (ix2 i q) ix0 (fun a => a.elim0), constant_apply, Ideal.ofBits_zero_f32]
  · refine Finset.sum_congr rfl fun e _ => ?_
    rw [mulf_apply, rowGather_apply hN, Cert.LibAggRead.spread_apply, mul_comm]

/-- One hop of an all-real matrix with all-real edge weights is all real: its entries are zero plus finite sums of
products of reals. -/
theorem allReal_hop {N E C : ℕ}
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (nrm : FVec Ideal ⟨1, ![E]⟩ .f32) (rowB colB : IVec ⟨2, ![E, 1]⟩ 32)
    (h : FVec Ideal ⟨2, ![N, C]⟩ .f32) (hn : AllReal nrm) (hh : AllReal h) :
    AllReal (hop gwf swf hz hb1 hb2 nrm rowB colB h) :=
  AllReal.scatterAdd _ colB (AllReal.bcast hz (allReal_zero _))
    (AllReal.mulf (AllReal.bcast hb2 (AllReal.bcast hb1 hn)) (AllReal.gather _ rowB hh))

/-- THE LAW. Two hops of the dense product x · wt (given entrywise as z) equal the dense product of two hops of x with
wt, when x, wt and the edge weights are all real: the aggregation commutes with the dense product for real factors,
once per hop — the second time on the aggregated rows of x, real again. -/
theorem hops_dense {N E A B : ℕ} (hN : 0 < N)
    (gwfA : GatherDims.WF ⟨2, ![N, A]⟩ ⟨2, ![E, 1]⟩ ⟨2, ![E, A]⟩ [1] [0] [] [0] [] 1 ![1, A])
    (swfA : ScatterDims.WF ⟨2, ![N, A]⟩ ⟨2, ![E, 1]⟩ ⟨2, ![E, A]⟩ [1] [0] [0] 1)
    (hzA : (⟨0, ![]⟩ : Shape).BroadcastsInDim ⟨2, ![N, A]⟩ ![])
    (hb2A : (⟨2, ![E, 1]⟩ : Shape).BroadcastsInDim ⟨2, ![E, A]⟩ ![0, 1])
    (gwfB : GatherDims.WF ⟨2, ![N, B]⟩ ⟨2, ![E, 1]⟩ ⟨2, ![E, B]⟩ [1] [0] [] [0] [] 1 ![1, B])
    (swfB : ScatterDims.WF ⟨2, ![N, B]⟩ ⟨2, ![E, 1]⟩ ⟨2, ![E, B]⟩ [1] [0] [0] 1)
    (hzB : (⟨0, ![]⟩ : Shape).BroadcastsInDim ⟨2, ![N, B]⟩ ![])
    (hb2B : (⟨2, ![E, 1]⟩ : Shape).BroadcastsInDim ⟨2, ![E, B]⟩ ![0, 1])
    (hb1 : (⟨1, ![E]⟩ : Shape).BroadcastsInDim ⟨2, ![E, 1]⟩ ![0])
    (nrm : FVec Ideal ⟨1, ![E]⟩ .f32) (rowB colB : IVec ⟨2, ![E, 1]⟩ 32)
    (x : FVec Ideal ⟨2, ![N, A]⟩ .f32) (wt : FVec Ideal ⟨2, ![A, B]⟩ .f32) (z : FVec Ideal ⟨2, ![N, B]⟩ .f32)
    (hz' : ∀ (p : Fin N) (q : Fin B), z (ix2 p q) = ∑ k : Fin A, x (ix2 p k) * wt (ix2 k q))
    (hx : AllReal x) (hw : AllReal wt) (hn : AllReal nrm) :
    hop gwfB swfB hzB hb1 hb2B nrm rowB colB (hop gwfB swfB hzB hb1 hb2B nrm rowB colB z)
      = Host.dotGeneral (F := Ideal) (DotDims.plain N A B) none
          (hop gwfA swfA hzA hb1 hb2A nrm rowB colB (hop gwfA swfA hzA hb1 hb2A nrm rowB colB x)) wt := by
  funext j
  obtain ⟨i, q, rfl⟩ : ∃ (i : Fin N) (q : Fin B), j = ix2 i q := ⟨j 0, j 1, eq_ix2 j⟩
  -- the abstract data of the aggregation
  set S : Fin N → Finset (Fin E) := landing colB with hS
  set g : Fin E → Fin N := fun e => clampRow N hN (rowB (ix2 e 0)) with hg
  set n : Fin E → EReal := fun e => nrm (ix1 e) with hnn
  set a : Fin N → Fin A → EReal := fun i k => x (ix2 i k) with ha
  set w : Fin A → Fin B → EReal := fun k q => wt (ix2 k q) with hww
  have hnR : ∀ e, IsReal (n e) := fun e => hn _
  have haR : ∀ i k, IsReal (a i k) := fun i k => hx _
  have hwR : ∀ k q, IsReal (w k q) := fun k q => hw _
  -- the inner hops as aggregations
  have hzmm : (fun i k => z (ix2 i k)) = Cert.LibGraph.mm a w := by
    funext i k; exact hz' i k
  have hinB : (fun i k => hop gwfB swfB hzB hb1 hb2B nrm rowB colB z (ix2 i k))
      = Cert.LibGraph.agg S g n (Cert.LibGraph.mm a w) := by
    funext i k; rw [hop_apply hN, hzmm]
  have hinA : (fun i k => hop gwfA swfA hzA hb1 hb2A nrm rowB colB x (ix2 i k)) = Cert.LibGraph.agg S g n a := by
    funext i k; rw [hop_apply hN]
  have houtA : (fun i k => hop gwfA swfA hzA hb1 hb2A nrm rowB colB (hop gwfA swfA hzA hb1 hb2A nrm rowB colB x) (ix2 i k))
      = Cert.LibGraph.agg S g n (Cert.LibGraph.agg S g n a) := by
    funext i k; rw [hop_apply hN, hinA]
  rw [hop_apply hN, hinB]
  rw [show Host.dotGeneral (F := Ideal) (DotDims.plain N A B) none
        (hop gwfA swfA hzA hb1 hb2A nrm rowB colB (hop gwfA swfA hzA hb1 hb2A nrm rowB colB x)) wt (ix2 i q)
      = Cert.LibGraph.mm (Cert.LibGraph.agg S g n (Cert.LibGraph.agg S g n a)) w i q from by
    rw [← houtA]
    exact Cert.LibDense.plain_dotGeneral_apply none .single _ wt i q]
  have h1 : Cert.LibGraph.agg S g n (Cert.LibGraph.mm a w) = Cert.LibGraph.mm (Cert.LibGraph.agg S g n a) w := by
    funext i k; exact Cert.LibGraph.agg_mm S g hnR haR hwR i k
  rw [h1]
  exact Cert.LibGraph.agg_mm S g hnR (fun i k => Cert.LibGraph.isReal_agg hnR haR i k) hwR i q

/-- THE EDGE WEIGHTS ARE REAL. The degree — a scatter-add of real ones into real zeros — is real at every node; where it
compares above 0 it is a positive real, whose inverse square root is real; elsewhere the entry is the real default. A
gathered entry is an entry of that array, and the product of two reals is real. -/
theorem allReal_weights {sN sI sE : Shape} (d : ScatterDims sN sI sE) (g : GatherDims sN sI sE)
    (zeros cmp0 else0 : FVec Ideal sN .f32) (ones : FVec Ideal sE .f32) (idx idxA idxB : IVec sI 32)
    (hzeros : AllReal zeros) (hcmp0 : ∀ j, cmp0 j = 0) (helse : AllReal else0) (hones : AllReal ones) :
    AllReal (mulf
      (Host.gather g (select (cmpf .ogt (Host.scatterAdd d zeros idx ones) cmp0)
        (Host.rsqrt (Host.scatterAdd d zeros idx ones)) else0) idxA)
      (Host.gather g (select (cmpf .ogt (Host.scatterAdd d zeros idx ones) cmp0)
        (Host.rsqrt (Host.scatterAdd d zeros idx ones)) else0) idxB)) := by
  have hdeg : AllReal (Host.scatterAdd d zeros idx ones) := AllReal.scatterAdd d idx hzeros hones
  have hsel : AllReal (select (cmpf .ogt (Host.scatterAdd d zeros idx ones) cmp0)
      (Host.rsqrt (Host.scatterAdd d zeros idx ones)) else0) := by
    intro j
    obtain ⟨r, hr⟩ := hdeg j
    show IsReal (Scalar.select (Ideal.cmp .ogt (Host.scatterAdd d zeros idx ones j) (cmp0 j))
      (Ideal.rsqrt (Host.scatterAdd d zeros idx ones j)) (else0 j))
    rw [hr, hcmp0 j]
    unfold Scalar.select
    split
    · next hc =>
      have hpos : 0 < r := by
        unfold Ideal.cmp at hc
        by_contra hneg
        have : ¬ ((0 : EReal) < (r : EReal)) := fun h => hneg (by exact_mod_cast h)
        simp [this] at hc
      exact IsReal.rsqrt_of_pos hpos
    · exact helse j
  exact AllReal.mulf (AllReal.gather g idxA hsel) (AllReal.gather g idxB hsel)

end Cert.LibHops

end
-- ==== Proof.Spec.lean ====
/-
  The two programs' results as functions of the argument arrays, and the law that joins them.

  Both programs build the same graph data from the edge array `ei` ([2, 800000] node numbers): the source column
  `rowV` and the target column `colV` (each edge row followed by the 50000 self loops 0 … 49999), the degree of every
  node (a scatter-add of ones at the targets), its inverse square root where the degree is positive (zero elsewhere),
  and the edge weight `nrm e` = dinv (source e) · dinv (target e), the sources and targets read with negative numbers
  wrapped by 50000 and then clamped by the gather. One propagation hop of a matrix gathers its rows at the sources,
  scales row e by `nrm e` and scatter-adds the rows at the targets into zeros.

  The kernel's program projects first, z = x · wᵀ ([50000, 64]), then applies two hops and adds the bias row; the
  reference applies two hops to x ([50000, 128]), then projects and adds the bias row. A hop is linear in the rows, so
  it commutes with the projection — once every factor is a real number: x and w by the precondition, the edge weights
  because a degree is a finite sum of ones.
-/
import proofs.«115316_j45483703665112_2_alg».proof.Proof.LibHops

set_option maxRecDepth 16384

noncomputable section

namespace Cert.Spec

open Idealize.ShloMosaic Idealize.ShloMosaic.ValueIdx Idealize.ShloMosaic.RowIdx Cert.Sage Cert.LibHops

/-! ## The shape facts the operations take -/

theorem hsl0 : (⟨2, ![2, 800000]⟩ : Shape).Slices ![0, 0] ⟨2, ![1, 800000]⟩ := by decide
theorem hsl1 : (⟨2, ![2, 800000]⟩ : Shape).Slices ![1, 0] ⟨2, ![1, 800000]⟩ := by decide
theorem hsc : (⟨2, ![1, 800000]⟩ : Shape).ShapeCasts ⟨1, ![800000]⟩ := by decide
theorem hcat : Shape.Concatenates [(⟨1, ![800000]⟩ : Shape), ⟨1, ![50000]⟩] ⟨1, ![850000]⟩ 0 := by decide
theorem hbE : (⟨0, ![]⟩ : Shape).BroadcastsInDim ⟨1, ![850000]⟩ (![] : Fin 0 → Fin 1) := by decide
theorem hbN : (⟨0, ![]⟩ : Shape).BroadcastsInDim ⟨1, ![50000]⟩ (![] : Fin 0 → Fin 1) := by decide
theorem hb1 : (⟨1, ![850000]⟩ : Shape).BroadcastsInDim ⟨2, ![850000, 1]⟩ (![0] : Fin 1 → Fin 2) := by decide
theorem hb2_64 : (⟨2, ![850000, 1]⟩ : Shape).BroadcastsInDim ⟨2, ![850000, 64]⟩ (![0, 1] : Fin 2 → Fin 2) := by decide
theorem hb2_128 : (⟨2, ![850000, 1]⟩ : Shape).BroadcastsInDim ⟨2, ![850000, 128]⟩ (![0, 1] : Fin 2 → Fin 2) := by decide
theorem hz64 : (⟨0, ![]⟩ : Shape).BroadcastsInDim ⟨2, ![50000, 64]⟩ (![] : Fin 0 → Fin 2) := by decide
theorem hz128 : (⟨0, ![]⟩ : Shape).BroadcastsInDim ⟨2, ![50000, 128]⟩ (![] : Fin 0 → Fin 2) := by decide
theorem hbb1 : (⟨1, ![64]⟩ : Shape).BroadcastsInDim ⟨2, ![1, 64]⟩ (![1] : Fin 1 → Fin 2) := by decide
theorem hbb2 : (⟨2, ![1, 64]⟩ : Shape).BroadcastsInDim ⟨2, ![50000, 64]⟩ (![0, 1] : Fin 2 → Fin 2) := by decide
theorem htr : (⟨2, ![64, 128]⟩ : Shape).Transposes [1, 0] ⟨2, ![128, 64]⟩ := by decide
theorem swf1 : ScatterDims.WF ⟨1, ![50000]⟩ ⟨2, ![850000, 1]⟩ ⟨1, ![850000]⟩ [] [0] [0] 1 := by decide
theorem gwf1 : GatherDims.WF ⟨1, ![50000]⟩ ⟨2, ![850000, 1]⟩ ⟨1, ![850000]⟩ [] [0] [] [0] [] 1 ![1] := by decide
theorem gwf64 : GatherDims.WF ⟨2, ![50000, 64]⟩ ⟨2, ![850000, 1]⟩ ⟨2, ![850000, 64]⟩ [1] [0] [] [0] [] 1 ![1, 64] := by decide
theorem swf64 : ScatterDims.WF ⟨2, ![50000, 64]⟩ ⟨2, ![850000, 1]⟩ ⟨2, ![850000, 64]⟩ [1] [0] [0] 1 := by decide
theorem gwf128 : GatherDims.WF ⟨2, ![50000, 128]⟩ ⟨2, ![850000, 1]⟩ ⟨2, ![850000, 128]⟩ [1] [0] [] [0] [] 1 ![1, 128] := by decide
theorem swf128 : ScatterDims.WF ⟨2, ![50000, 128]⟩ ⟨2, ![850000, 1]⟩ ⟨2, ![850000, 128]⟩ [1] [0] [0] 1 := by decide

/-- The dimension numbers of the degree's scatter-add: a vector [50000] at an index column [850000, 1]. -/
abbrev sc1 : ScatterDims ⟨1, ![50000]⟩ ⟨2, ![850000, 1]⟩ ⟨1, ![850000]⟩ where
  updateWindowDims := []
  insertedWindowDims := [0]
  scatterDimsToOperandDims := [0]
  indexVectorDim := 1
  wf := swf1

/-- The dimension numbers of the gathers of single entries of a vector [50000] at an index column [850000, 1]. -/
abbrev g1 : GatherDims ⟨1, ![50000]⟩ ⟨2, ![850000, 1]⟩ ⟨1, ![850000]⟩ where
  offsetDims := []
  collapsedSliceDims := [0]
  operandBatchingDims := []
  startIndicesBatchingDims := []
  startIndexMap := [0]
  indexVectorDim := 1
  sliceSizes := ![1]
  wf := gwf1

/-! ## The graph data -/

/-- Row `r` of the edge array followed by the self loops 0 … 49999. -/
def edgeCol (r : Fin 2 → Nat) (hs : (⟨2, ![2, 800000]⟩ : Shape).Slices r ⟨2, ![1, 800000]⟩)
    (ei : IVec ⟨2, ![2, 800000]⟩ 32) : IVec ⟨1, ![850000]⟩ 32 :=
  concatenate ⟨1, ![850000]⟩ 0 [⟨⟨1, ![800000]⟩, shapeCast _ (extractStridedSlice ⟨2, ![1, 800000]⟩ r ei hs) hsc⟩,
    ⟨⟨1, ![50000]⟩, iotaInDim ⟨1, ![50000]⟩ 32 0⟩] hcat

/-- The sources. -/
def rowV (ei : IVec ⟨2, ![2, 800000]⟩ 32) : IVec ⟨1, ![850000]⟩ 32 := edgeCol ![0, 0] hsl0 ei
/-- The targets. -/
def colV (ei : IVec ⟨2, ![2, 800000]⟩ 32) : IVec ⟨1, ![850000]⟩ 32 := edgeCol ![1, 0] hsl1 ei

/-- A node column as a gather reads it: a negative number wrapped by 50000, stood up as an index column. -/
def normB (v : IVec ⟨1, ![850000]⟩ 32) : IVec ⟨2, ![850000, 1]⟩ 32 :=
  broadcastInDim ⟨2, ![850000, 1]⟩ ![0] hb1
    (select (cmpi .slt v (broadcastInDim ⟨1, ![850000]⟩ ![] hbE (constantI ⟨0, ![]⟩ 32 0#32)))
      (addi v (broadcastInDim ⟨1, ![850000]⟩ ![] hbE (constantI ⟨0, ![]⟩ 32 50000#32))) v)

/-- A node column as a scatter reads it: stood up as an index column, nothing wrapped. -/
def rawB (v : IVec ⟨1, ![850000]⟩ 32) : IVec ⟨2, ![850000, 1]⟩ 32 := broadcastInDim ⟨2, ![850000, 1]⟩ ![0] hb1 v

/-- The zero vector over the nodes. -/
def zerosN : FVec Ideal ⟨1, ![50000]⟩ .f32 := broadcastInDim ⟨1, ![50000]⟩ ![] hbN (constant ⟨0, ![]⟩ .f32 0x00000000#32)

/-- The degrees: ones scatter-added at the targets into zeros. -/
def deg (ei : IVec ⟨2, ![2, 800000]⟩ 32) : FVec Ideal ⟨1, ![50000]⟩ .f32 :=
  Host.scatterAdd sc1 zerosN (rawB (colV ei)) (broadcastInDim ⟨1, ![850000]⟩ ![] hbE (constant ⟨0, ![]⟩ .f32 0x3F800000#32))

/-- The inverse square roots of the positive degrees, zero at the others. -/
def dinv (ei : IVec ⟨2, ![2, 800000]⟩ 32) : FVec Ideal ⟨1, ![50000]⟩ .f32 :=
  select (cmpf .ogt (deg ei) zerosN) (Host.rsqrt (deg ei))
    (broadcastInDim ⟨1, ![50000]⟩ ![] hbN (id (constant ⟨0, ![]⟩ .f32 0x00000000#32)))

/-- The edge weights: dinv at the source times dinv at the target. -/
def nrm (ei : IVec ⟨2, ![2, 800000]⟩ 32) : FVec Ideal ⟨1, ![850000]⟩ .f32 :=
  mulf (Host.gather g1 (dinv ei) (normB (rowV ei))) (Host.gather g1 (dinv ei) (normB (colV ei)))

/-- The bias row spread over the 50000 rows. -/
def biasArr (b : FVec Ideal ⟨1, ![64]⟩ .f32) : FVec Ideal ⟨2, ![50000, 64]⟩ .f32 :=
  broadcastInDim ⟨2, ![50000, 64]⟩ ![0, 1] hbb2 (broadcastInDim ⟨2, ![1, 64]⟩ ![1] hbb1 b)

/-- One hop at 64 columns. -/
def hop64 (ei : IVec ⟨2, ![2, 800000]⟩ 32) (h : FVec Ideal ⟨2, ![50000, 64]⟩ .f32) : FVec Ideal ⟨2, ![50000, 64]⟩ .f32 :=
  hop gwf64 swf64 hz64 hb1 hb2_64 (nrm ei) (normB (rowV ei)) (rawB (colV ei)) h

/-- One hop at 128 columns. -/
def hop128 (ei : IVec ⟨2, ![2, 800000]⟩ 32) (h : FVec Ideal ⟨2, ![50000, 128]⟩ .f32) : FVec Ideal ⟨2, ![50000, 128]⟩ .f32 :=
  hop gwf128 swf128 hz128 hb1 hb2_128 (nrm ei) (normB (rowV ei)) (rawB (colV ei)) h

/-! ## The two results -/

/-- The kernel's program from the projected features `z`: two hops, then the bias row. -/
def Kspec (z : FVec Ideal ⟨2, ![50000, 64]⟩ .f32) (ei : IVec ⟨2, ![2, 800000]⟩ 32) (b : FVec Ideal ⟨1, ![64]⟩ .f32) :
    FVec Ideal ⟨2, ![50000, 64]⟩ .f32 :=
  addf (hop64 ei (hop64 ei z)) (biasArr b)

/-- The reference: two hops of `x`, the projection by the transposed weight, then the bias row. -/
def Rspec (x : FVec Ideal ⟨2, ![50000, 128]⟩ .f32) (ei : IVec ⟨2, ![2, 800000]⟩ 32) (w : FVec Ideal ⟨2, ![64, 128]⟩ .f32)
    (b : FVec Ideal ⟨1, ![64]⟩ .f32) : FVec Ideal ⟨2, ![50000, 64]⟩ .f32 :=
  addf (Host.dotGeneral (DotDims.plain 50000 128 64) none (hop128 ei (hop128 ei x)) (transpose ⟨2, ![128, 64]⟩ [1, 0] w htr))
    (biasArr b)

/-! ## The law -/

/-- The edge weights are real numbers: a degree is zero plus a finite sum of ones; where it is positive its inverse
    square root is a real, elsewhere the entry is zero; a weight is a product of two such entries. -/
theorem allReal_nrm (ei : IVec ⟨2, ![2, 800000]⟩ 32) : AllReal (nrm ei) := by
  unfold nrm dinv deg
  refine allReal_weights sc1 g1 zerosN zerosN _ _ (rawB (colV ei)) (normB (rowV ei)) (normB (colV ei)) ?_ ?_ ?_ ?_
  · exact AllReal.bcast hbN (allReal_zero _)
  · intro j; exact Ideal.ofBits_zero_f32
  · exact AllReal.bcast hbN (allReal_zero _)
  · exact AllReal.bcast hbE (fun _ => Cert.LibSignCancel.isReal_one)

/-- The transposed weight at (k, q) is the weight at (q, k). -/
theorem transpose_w_apply (w : FVec Ideal ⟨2, ![64, 128]⟩ .f32) (k : Fin 128) (q : Fin 64) :
    transpose ⟨2, ![128, 64]⟩ [1, 0] w htr (ix2 k q) = w (ix2 q k) :=
  transpose_apply [1, 0] w htr (ix2 k q) (ix2 q k) (fun b => by
    match b with
    | ⟨0, _⟩ => rfl
    | ⟨1, _⟩ => rfl)

/-- THE LAW. With `x` and `w` all real and `z` the projection of `x` by `wᵀ`, the kernel's program and the reference
    end at the same array: two hops of the projected rows are the projection of two hops of the rows, every factor
    being real; the bias row is added to both. -/
theorem spec_eq (x : FVec Ideal ⟨2, ![50000, 128]⟩ .f32) (ei : IVec ⟨2, ![2, 800000]⟩ 32)
    (w : FVec Ideal ⟨2, ![64, 128]⟩ .f32) (b : FVec Ideal ⟨1, ![64]⟩ .f32) (z : FVec Ideal ⟨2, ![50000, 64]⟩ .f32)
    (hz : ∀ (p : Fin 50000) (q : Fin 64), z (ix2 p q) = ∑ k : Fin 128, x (ix2 p k) * w (ix2 q k))
    (hx : AllReal x) (hw : AllReal w) : Kspec z ei b = Rspec x ei w b := by
  unfold Kspec Rspec hop64 hop128
  rw [hops_dense (by decide : 0 < 50000) gwf128 swf128 hz128 hb2_128 gwf64 swf64 hz64 hb2_64 hb1 (nrm ei) (normB (rowV ei))
    (rawB (colV ei)) x (transpose ⟨2, ![128, 64]⟩ [1, 0] w htr) z
    (fun p q => (hz p q).trans (Finset.sum_congr rfl fun k _ => by rw [transpose_w_apply]))
    hx (AllReal.transpose htr hw) (allReal_nrm ei)]

end Cert.Spec

end
-- ==== Proof.KTail.lean ====
/-
  The kernel program's result as a function of its argument arrays.

  After the region @main runs 75 host lines in three stretches. The first (18 lines) builds the source and target
  columns from the edge array and the degrees, the comparison of the degrees with zero and their inverse square roots;
  the second (3 lines) chooses the inverse square root where the degree is positive and zero elsewhere; the third
  (54 lines) forms the edge weights, runs two propagation hops of the region's output array and adds the bias row.
  Read one stretch at a time, from ANY contents of the buffers, the result buffer ends at the specification's kernel
  side of the output array, the edge array and the bias found there. When the region is left the output array holds the
  projection of `x` by the transposed weight, and the edge array and the bias are as launched.
-/
import proofs.«115316_j45483703665112_2_alg».proof.Proof.FrameDefs
import proofs.«115316_j45483703665112_2_alg».proof.Proof.KValue
import proofs.«115316_j45483703665112_2_alg».proof.Proof.Spec
import Idealize.ShloMosaic.Lib.StableHlo.Run

set_option maxRecDepth 16384

noncomputable section

namespace Cert.KernelIdeal.KT

open Cert.KernelIdeal Cert.KernelIdeal.Gen Cert.KernelIdeal.Fr
open Idealize.ShloMosaic Idealize.ShloMosaic.TcCoe Idealize.ShloMosaic.ValueIdx Idealize.ShloMosaic.StableHlo
open Idealize.SL.Sem

/-! ## The third stretch: edge weights, two hops, the bias -/

/-- The edge weights from the inverse square roots `dv` and the two node columns. -/
def nrmOf (dv : FVec Ideal ⟨1, ![50000]⟩ .f32) (rv cv : IVec ⟨1, ![850000]⟩ 32) : FVec Ideal ⟨1, ![850000]⟩ .f32 :=
  mulf (Host.gather Cert.Spec.g1 dv (Cert.Spec.normB rv)) (Host.gather Cert.Spec.g1 dv (Cert.Spec.normB cv))

/-- Two hops of `z` with those weights, plus the bias row. -/
def KspecOf (z : FVec Ideal ⟨2, ![50000, 64]⟩ .f32) (rv cv : IVec ⟨1, ![850000]⟩ 32) (dv : FVec Ideal ⟨1, ![50000]⟩ .f32)
    (b : FVec Ideal ⟨1, ![64]⟩ .f32) : FVec Ideal ⟨2, ![50000, 64]⟩ .f32 :=
  addf
    (Cert.LibHops.hop Cert.Spec.gwf64 Cert.Spec.swf64 Cert.Spec.hz64 Cert.Spec.hb1 Cert.Spec.hb2_64 (nrmOf dv rv cv)
      (Cert.Spec.normB rv) (Cert.Spec.rawB cv)
      (Cert.LibHops.hop Cert.Spec.gwf64 Cert.Spec.swf64 Cert.Spec.hz64 Cert.Spec.hb1 Cert.Spec.hb2_64 (nrmOf dv rv cv)
        (Cert.Spec.normB rv) (Cert.Spec.rawB cv) z))
    (Cert.Spec.biasArr b)

set_option maxHeartbeats 4000000 in
/-- The 54 lines of the third stretch, from any contents. -/
theorem s3 (W : Valuation τ sig (Elt Ideal)) :
    StableHlo.after (hostOps1_2 (F := Ideal)) W (Proc.devRef .tc main_v60)
      = KspecOf (W (Proc.devRef .tc main_v1)) (W (Proc.devRef .tc main_v5)) (W (Proc.devRef .tc main_v8))
          (W (Proc.devRef .tc main_v16)) (W (Proc.devRef .tc main_arg3)) := by
  simp only [hostOps1_2]
  after_results_simp
  unfold KspecOf nrmOf Cert.LibHops.hop Cert.Spec.normB Cert.Spec.rawB Cert.Spec.biasArr
  rfl

/-! ## The second stretch: the choice -/

/-- Its three lines write the chosen vector, -/
theorem s2_v16 (W : Valuation τ sig (Elt Ideal)) :
    StableHlo.after (hostOps1_1 (F := Ideal)) W (Proc.devRef .tc main_v16)
      = select (W (Proc.devRef .tc main_v14)) (W (Proc.devRef .tc main_v15))
          (broadcastInDim S50000 ![] bcast_S_S50000 (id (W (Proc.devRef .tc main_cst_2)))) := by
  simp only [hostOps1_1]
  after_results
  rfl
/-- and leave the output array, the two columns and the bias alone. -/
theorem s2_v1 (W : Valuation τ sig (Elt Ideal)) :
    StableHlo.after (hostOps1_1 (F := Ideal)) W (Proc.devRef .tc main_v1) = W (Proc.devRef .tc main_v1) := by
  simp only [hostOps1_1]; after_results
theorem s2_v5 (W : Valuation τ sig (Elt Ideal)) :
    StableHlo.after (hostOps1_1 (F := Ideal)) W (Proc.devRef .tc main_v5) = W (Proc.devRef .tc main_v5) := by
  simp only [hostOps1_1]; after_results
theorem s2_v8 (W : Valuation τ sig (Elt Ideal)) :
    StableHlo.after (hostOps1_1 (F := Ideal)) W (Proc.devRef .tc main_v8) = W (Proc.devRef .tc main_v8) := by
  simp only [hostOps1_1]; after_results
theorem s2_arg3 (W : Valuation τ sig (Elt Ideal)) :
    StableHlo.after (hostOps1_1 (F := Ideal)) W (Proc.devRef .tc main_arg3) = W (Proc.devRef .tc main_arg3) := by
  simp only [hostOps1_1]; after_results

/-! ## The first stretch: the columns, the degrees -/

theorem s1_v5 (W : Valuation τ sig (Elt Ideal)) :
    StableHlo.after (hostOps1 (F := Ideal)) W (Proc.devRef .tc main_v5) = Cert.Spec.rowV (W (Proc.devRef .tc main_arg1)) := by
  simp only [hostOps1]; after_results
  unfold Cert.Spec.rowV Cert.Spec.edgeCol
  rfl
theorem s1_v8 (W : Valuation τ sig (Elt Ideal)) :
    StableHlo.after (hostOps1 (F := Ideal)) W (Proc.devRef .tc main_v8) = Cert.Spec.colV (W (Proc.devRef .tc main_arg1)) := by
  simp only [hostOps1]; after_results
  unfold Cert.Spec.colV Cert.Spec.edgeCol
  rfl
theorem s1_v14 (W : Valuation τ sig (Elt Ideal)) :
    StableHlo.after (hostOps1 (F := Ideal)) W (Proc.devRef .tc main_v14)
      = cmpf .ogt (Cert.Spec.deg (W (Proc.devRef .tc main_arg1))) Cert.Spec.zerosN := by
  simp only [hostOps1]; after_results
  unfold Cert.Spec.deg Cert.Spec.zerosN Cert.Spec.rawB Cert.Spec.colV Cert.Spec.edgeCol
  rfl
theorem s1_v15 (W : Valuation τ sig (Elt Ideal)) :
    StableHlo.after (hostOps1 (F := Ideal)) W (Proc.devRef .tc main_v15)
      = Host.rsqrt (Cert.Spec.deg (W (Proc.devRef .tc main_arg1))) := by
  simp only [hostOps1]; after_results
  unfold Cert.Spec.deg Cert.Spec.zerosN Cert.Spec.rawB Cert.Spec.colV Cert.Spec.edgeCol
  rfl
theorem s1_cst2 (W : Valuation τ sig (Elt Ideal)) :
    StableHlo.after (hostOps1 (F := Ideal)) W (Proc.devRef .tc main_cst_2)
      = (constant (F := Ideal) S_ .f32 0x00000000#32 : FVec Ideal S_ .f32) := by
  simp only [hostOps1]; after_results
theorem s1_v1 (W : Valuation τ sig (Elt Ideal)) :
    StableHlo.after (hostOps1 (F := Ideal)) W (Proc.devRef .tc main_v1) = W (Proc.devRef .tc main_v1) := by
  simp only [hostOps1]; after_results
theorem s1_arg3 (W : Valuation τ sig (Elt Ideal)) :
    StableHlo.after (hostOps1 (F := Ideal)) W (Proc.devRef .tc main_arg3) = W (Proc.devRef .tc main_arg3) := by
  simp only [hostOps1]; after_results

/-! ## The three stretches together -/

/-- The 75 lines after the region, from ANY contents of the buffers: the result buffer ends at the specification's
    kernel side of the output array, the edge array and the bias found there. -/
theorem tail_eq (W : Valuation τ sig (Elt Ideal)) :
    StableHlo.after (List.flatten (tailOps (F := Ideal))) W (Proc.devRef .tc main_v60)
      = Cert.Spec.Kspec (W (Proc.devRef .tc main_v1)) (W (Proc.devRef .tc main_arg1)) (W (Proc.devRef .tc main_arg3)) := by
  have e : List.flatten (tailOps (F := Ideal)) = hostOps1 ++ (hostOps1_1 ++ hostOps1_2) := by
    simp only [tailOps, List.flatten_cons, List.flatten_nil, List.append_nil]
  rw [e, StableHlo.after_append, StableHlo.after_append, s3, s2_v16, s2_v1, s2_v5, s2_v8, s2_arg3, s1_v14, s1_v15, s1_cst2,
    s1_v1, s1_v5, s1_v8, s1_arg3]
  unfold KspecOf nrmOf Cert.Spec.Kspec Cert.Spec.hop64 Cert.Spec.nrm Cert.Spec.dinv
  rfl

variable (m : (ℓ : Loc nD τ sig) → Buf (Elt Ideal) ℓ)

/-- The kernel program's result: two hops of the projected features plus the bias row, in the launch contents. -/
def kres (c : Dev nD) : Buf (Elt Ideal) ((c.tc : Thread nD τ).loc main_v60) :=
  Cert.Spec.Kspec
    (Cert.KernelIdeal.KV.Zfun (m ((c.tc : Thread nD τ).loc main_arg0))
      (transpose S128x64 [1, 0] (m ((c.tc : Thread nD τ).loc main_arg2)) Cert.Spec.htr))
    (m ((c.tc : Thread nD τ).loc main_arg1)) (m ((c.tc : Thread nD τ).loc main_arg3))

/-- The region finds `x` as launched: the one line before it writes another buffer. -/
theorem V_arg0 (c : Dev nD) : V m c main_arg0 = m ((c.tc : Thread nD τ).loc main_arg0) := by
  show StableHlo.after hostOps0 (fun b => m (c, b)) (Proc.devRef .tc main_arg0) = _
  after_results
/-- It finds the edge array as launched, -/
theorem V_arg1 (c : Dev nD) : V m c main_arg1 = m ((c.tc : Thread nD τ).loc main_arg1) := by
  show StableHlo.after hostOps0 (fun b => m (c, b)) (Proc.devRef .tc main_arg1) = _
  after_results
/-- and the bias. -/
theorem V_arg3 (c : Dev nD) : V m c main_arg3 = m ((c.tc : Thread nD τ).loc main_arg3) := by
  show StableHlo.after hostOps0 (fun b => m (c, b)) (Proc.devRef .tc main_arg3) = _
  after_results
/-- It finds the weight window's array at the transpose of the launched weight. -/
theorem V_v0 (c : Dev nD) :
    V m c main_v0 = transpose S128x64 [1, 0] (m ((c.tc : Thread nD τ).loc main_arg2)) Cert.Spec.htr := by
  show StableHlo.after hostOps0 (fun b => m (c, b)) (Proc.devRef .tc main_v0) = _
  after_results

/-- THE RESULT BUFFER after the lines that follow the region, from the region's exit contents: the arrays at what the
    pipeline left, every other buffer as the region found it. -/
theorem kernel_res (c : Dev nD) :
    Pipeline.afterTail₀ cfgs (dats (F := Ideal) m) 0 (V0 m) tailOps c main_v60 = kres m c := by
  unfold Pipeline.afterTail₀
  refine (tail_eq _).trans ?_
  unfold kres
  have h1 : Pipeline.withArrays (cfgs (0 : Fin 1)).spec c (V0 m c) (fun w => (dats (F := Ideal) m 0 c).arrAt w (cfgs (0 : Fin 1)).N) (Proc.devRef .tc main_v1)
      = Cert.KernelIdeal.KV.Zfun (m ((c.tc : Thread nD τ).loc main_arg0))
          (transpose S128x64 [1, 0] (m ((c.tc : Thread nD τ).loc main_arg2)) Cert.Spec.htr) :=
    (Pipeline.withArrays_arr spec0 launch0.win.arr_inj c (V0 m c) (fun w => (dats (F := Ideal) m 0 c).arrAt w cfg0.N) 2).trans
      ((Cert.KernelIdeal.KV.final2 m c).trans (by rw [V_arg0, V_v0]))
  have h2 : Pipeline.withArrays (cfgs (0 : Fin 1)).spec c (V0 m c) (fun w => (dats (F := Ideal) m 0 c).arrAt w (cfgs (0 : Fin 1)).N) (Proc.devRef .tc main_arg1)
      = m ((c.tc : Thread nD τ).loc main_arg1) :=
    (Pipeline.withArrays_of_ne spec0 c (V0 m c) _ main_arg1 (by decide)).trans (V_arg1 m c)
  have h3 : Pipeline.withArrays (cfgs (0 : Fin 1)).spec c (V0 m c) (fun w => (dats (F := Ideal) m 0 c).arrAt w (cfgs (0 : Fin 1)).N) (Proc.devRef .tc main_arg3)
      = m ((c.tc : Thread nD τ).loc main_arg3) :=
    (Pipeline.withArrays_of_ne spec0 c (V0 m c) _ main_arg3 (by decide)).trans (V_arg3 m c)
  rw [h1, h2, h3]

/-- The kernel program's result is the reference's, in the same launch contents, when the features and the weight are
    all real: the projected features are the projection by the transposed weight, and hops commute with it. -/
theorem kres_eq_ref (c : Dev nD)
    (hx : Cert.Sage.AllReal (m ((c.tc : Thread nD τ).loc main_arg0)))
    (hw : Cert.Sage.AllReal (m ((c.tc : Thread nD τ).loc main_arg2))) :
    kres m c = Cert.Spec.Rspec (m ((c.tc : Thread nD τ).loc main_arg0)) (m ((c.tc : Thread nD τ).loc main_arg1))
      (m ((c.tc : Thread nD τ).loc main_arg2)) (m ((c.tc : Thread nD τ).loc main_arg3)) := by
  unfold kres
  refine Cert.Spec.spec_eq _ _ _ _ _ (fun p q => ?_) hx hw
  unfold Cert.KernelIdeal.KV.Zfun
  exact Finset.sum_congr rfl fun k _ => (by rw [Cert.Spec.transpose_w_apply] <;> rfl)

end Cert.KernelIdeal.KT

end
-- ==== Proof.RefSide.lean ====
/-
  The reference's result is the specification's reference side: the composed term of its 77 host lines is, read with
  the graph data named, two hops of `x`, the projection by the transposed weight, and the bias row.
-/
import proofs.«115316_j45483703665112_2_alg».proof.Proof.RefRun
import proofs.«115316_j45483703665112_2_alg».proof.Proof.Spec

set_option maxRecDepth 16384

noncomputable section

namespace Cert.RefSide

open Cert.ReferenceIdeal Idealize.ShloMosaic Idealize.ShloMosaic.TcCoe Idealize.SL.Sem

/-- The run's term for the result is `Rspec` of the launch contents of the four arguments: the two are the same
    operations in the same order, the graph data spelt out on one side and named on the other. -/
theorem res_eq (m : (ℓ : Loc nD τ sig) → Buf (Elt Ideal) ℓ) (c : Dev nD) :
    Cert.ReferenceIdeal.ValueP.res_main_v60 (F := Ideal) m c
      = Cert.Spec.Rspec (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v60 Cert.Spec.Rspec Cert.Spec.hop128 Cert.LibHops.hop Cert.Spec.nrm
    Cert.Spec.dinv Cert.Spec.deg Cert.Spec.zerosN Cert.Spec.normB Cert.Spec.rawB Cert.Spec.rowV Cert.Spec.colV
    Cert.Spec.edgeCol Cert.Spec.biasArr
  rfl

end Cert.RefSide

end
-- ==== Proof.PreReal.lean ====
/-
  The finiteness precondition decoded: the node features and the dense weight are all real.

  The precondition is the conjunction of three statements "every entry of |v| compares below +∞", one for each float
  operand, each printed as a reduction by "and" from 1 over all axes of the array of comparisons. The conjunction being 1
  makes each reduction 1; a reduction by "and" into a single index that is 1 met a 1 at every operand index; and an
  extended real whose absolute value max v (−v) is below +∞ is neither infinity, that is, a real number.
-/
import proofs.«115316_j45483703665112_2_alg».proof.Pre_finite_inputs
import proofs.«115316_j45483703665112_2_alg».proof.Proof.Gen.Pre_finite_inputs
import proofs.«115316_j45483703665112_2_alg».proof.Proof.LibSignCancel
import Idealize.ShloMosaic.Lib.ReduceAll

noncomputable section

namespace Cert.PreReal

open Idealize.ShloMosaic Idealize.ShloMosaic.ValueIdx Cert.Sage Cert.Pre_finite_inputs

/-- The rank-0 shape has one index. -/
instance : Subsingleton S_.Idx := ⟨fun a b => funext fun d => d.elim0⟩

/-- THE PRECONDITION DECODED. If the finiteness predicate of the four operands is 1, then the node features and the dense
weight are all real: each "all entries are below +∞ in absolute value" conjunct gives, at every index, an absolute
value below +∞, hence a real entry. -/
theorem real_of_pre (x : FVec Ideal S50000x128 .f32) (ei : IVec S2x800000 32) (w : FVec Ideal S64x128 .f32)
    (b : FVec Ideal S64 .f32)
    (h : Cert.Pre_finite_inputs.fn (F := Ideal) x ei w b = (fun _ => 1#1)) : AllReal x ∧ AllReal w := by
  have h0 := congrFun h ix0
  dsimp only [Cert.Pre_finite_inputs.fn] at h0
  obtain ⟨h12, _⟩ := IntOp.andi_eq_one.1 h0
  obtain ⟨h1, h2⟩ := IntOp.andi_eq_one.1 h12
  refine ⟨fun i => ?_, fun i => ?_⟩
  · exact Cert.LibSignCancel.isReal_of_abs_lt_top (x i) (Host.reduce_andi_all _ _ _ _ ix0 h1 i)
  · exact Cert.LibSignCancel.isReal_of_abs_lt_top (w i) (Host.reduce_andi_all _ _ _ _ ix0 h2 i)

end Cert.PreReal

end
-- ==== Proof.lean ====
/-
  The equivalence of a pipelined projection kernel followed by graph propagation with its reference.

  The kernel's program transposes the 64 by 128 weight, projects the 50000 by 128 node features `x` to 64 columns in a
  pipelined kernel (five blocks of 10000 rows, a bf16 product into a zero accumulator), and then, on the host, builds
  the graph data from the edge array, propagates the projected features over two hops and adds the bias row. The
  reference propagates `x` itself over two hops at 128 columns, then projects by the transposed weight and adds the
  bias row. Read at the exact values both are the same array: a hop is a weighted sum of rows, so it commutes with the
  projection as soon as every factor is a real number — the features and the weight by the precondition, the edge
  weights because a degree is a finite sum of ones and the inverse square root of a positive real is real.

  The three programs run to the end without a fault and leave their arguments unchanged: the kernel's programs by the
  frame run of the pipeline around the region with the host lines before and after it, the reference by its run read
  back. The idealization rewrote no operation, so nothing is to be preserved.
-/
import proofs.«115316_j45483703665112_2_alg».proof.Defs
import proofs.«115316_j45483703665112_2_alg».proof.Proof.Gen.Kernel
import proofs.«115316_j45483703665112_2_alg».proof.Proof.Gen.KernelIdeal
import proofs.«115316_j45483703665112_2_alg».proof.Proof.Gen.ReferenceIdeal
import proofs.«115316_j45483703665112_2_alg».proof.Proof.Gen.Pre_finite_inputs
import proofs.«115316_j45483703665112_2_alg».proof.Proof.Frame
import proofs.«115316_j45483703665112_2_alg».proof.Proof.FrameB
import proofs.«115316_j45483703665112_2_alg».proof.Proof.KTail
import proofs.«115316_j45483703665112_2_alg».proof.Proof.RefSide
import proofs.«115316_j45483703665112_2_alg».proof.Proof.PreReal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Sage

/-- The word-level program runs to the end and leaves its four arguments as launched. -/
theorem frame_k : Cert.frame_Kernel := fun m ρ _ => Cert.Kernel.Fr.frame (F := Bits) m ρ

/-- So does the program read at the exact values. -/
theorem frame_ki : Cert.frame_KernelIdeal := fun m ρ _ => Cert.KernelIdeal.Fr.frame (F := Ideal) m ρ

/-- The reference's run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the result array at the specification's kernel side of the launch contents: the kernel's
    program by the frame run, the output array's closed form and the tail read back; the reference by its run, the
    agreement of the arguments, and the law that hops commute with the projection at real factors. -/
theorem algebraic : Cert.algebraic_KernelIdeal_ReferenceIdeal := by
  intro m ρ m' ρ' hpre hagree
  refine ⟨fun c => Cert.KernelIdeal.KT.kres m c, ?_, ?_⟩
  · refine (θ_run Cert.KernelIdeal.defs _ _).mono (fun r h c => ⟨?_, Cert.KernelIdeal.Fr.args_kept m r h c⟩)
      (Cert.KernelIdeal.Fr.run_main (F := Ideal) m ρ)
    exact ((h c).2 Cert.KernelIdeal.main_v60 (Pipeline.mem_restRefs_of Cert.KernelIdeal.main_v60 (by decide) (by decide))).trans
      (Cert.KernelIdeal.KT.kernel_res m c)
  · refine (θ_run Cert.ReferenceIdeal.defs _ _).mono (fun r h c => ⟨(h c).1.trans ?_, (h c).2⟩)
      (Cert.ReferenceIdeal.ValueP.run (F := Ideal) m' ρ')
    rw [Cert.RefSide.res_eq, (hagree c).1, (hagree c).2.1, (hagree c).2.2.1, (hagree c).2.2.2]
    obtain ⟨hx, hw⟩ := Cert.PreReal.real_of_pre _ _ _ _ (hpre c)
    exact (Cert.KernelIdeal.KT.kres_eq_ref m c hx hw).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
